-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50_1)) (v1 : (c : Dev Cert.KernelIdeal.nD) → Buf (Elt Ideal) ((c.tc : Thread Cert.KernelIdeal.nD Cert.KernelIdeal.τ).loc Cert.KernelIdeal.main_v50_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_1) = v0 c
          ∧ r.2.mem ((c.tc : Thread Cert.KernelIdeal.nD Cert.KernelIdeal.τ).loc Cert.KernelIdeal.main_v50_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S128x128 : Shape := ⟨2, ![128, 128]⟩
abbrev S2x128 : Shape := ⟨2, ![2, 128]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg8 : FVec F S128 .f32) (main_arg9 : FVec F S128x128 .f32) (main_arg10 : FVec F S2x128 .f32) (main_arg11 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S2x128 .f32 := Host.absf main_arg10
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg5 : FVec F S128x256 .f32) (main_arg6 : FVec F S128 .f32) (main_arg7 : FVec F S128x128 .f32) (main_arg8 : FVec F S128 .f32) (main_arg9 : FVec F S128x128 .f32) (main_arg10 : FVec F S2x128 .f32) (main_arg11 : FVec F S2 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S256x128 .f32) (main_arg3 : FVec F S256 .f32) (main_arg4 : FVec F S256x128 .f32) (main_arg5 : FVec F S128x256 .f32) (main_arg6 : FVec F S128 .f32) (main_arg7 : FVec F S128x128 .f32) (main_arg8 : FVec F S128 .f32) (main_arg9 : FVec F S128x128 .f32) (main_arg10 : FVec F S2x128 .f32) (main_arg11 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S128x128 : Shape := ⟨2, ![128, 128]⟩
abbrev S2x128 : Shape := ⟨2, ![2, 128]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S128x2 : Shape := ⟨2, ![128, 2]⟩
abbrev S1x256 : Shape := ⟨2, ![1, 256]⟩
abbrev S1x128 : Shape := ⟨2, ![1, 128]⟩
abbrev S4000x128 : Shape := ⟨2, ![4000, 128]⟩
abbrev S4000x1 : Shape := ⟨2, ![4000, 1]⟩
abbrev S4000x256 : Shape := ⟨2, ![4000, 256]⟩
abbrev S4000 : Shape := ⟨1, ![4000]⟩
abbrev S1x2 : Shape := ⟨2, ![1, 2]⟩
abbrev S100000x2 : Shape := ⟨2, ![100000, 2]⟩
abbrev S4000x2 : Shape := ⟨2, ![4000, 2]⟩

abbrev nBuf : Space → Nat
  | .hbm => 74
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S2x128, .f32⟩
  | .hbm, ⟨11, _⟩ => ⟨S2, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S128x256, .f32⟩
  | .hbm, ⟨43, _⟩ => ⟨S128x256, .bf16⟩
  | .hbm, ⟨44, _⟩ => ⟨S128x256, .f32⟩
  | .hbm, ⟨45, _⟩ => ⟨S128x256, .bf16⟩
  | .hbm, ⟨46, _⟩ => ⟨S256x128, .f32⟩
  | .hbm, ⟨47, _⟩ => ⟨S256x128, .bf16⟩
  | .hbm, ⟨48, _⟩ => ⟨S128x128, .f32⟩
  | .hbm, ⟨49, _⟩ => ⟨S128x128, .bf16⟩
  | .hbm, ⟨50, _⟩ => ⟨S128x128, .f32⟩
  | .hbm, ⟨51, _⟩ => ⟨S128x128, .bf16⟩
  | .hbm, ⟨52, _⟩ => ⟨S128x2, .f32⟩
  | .hbm, ⟨53, _⟩ => ⟨S128x2, .bf16⟩
  | .hbm, ⟨54, _⟩ => ⟨S1x256, .f32⟩
  | .hbm, ⟨55, _⟩ => ⟨S1x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S1x128, .f32⟩
  | .hbm, ⟨71, _⟩ => ⟨S1x2, .f32⟩
  | .hbm, ⟨72, _⟩ => ⟨S100000x128, .f32⟩
  | .hbm, ⟨73, _⟩ => ⟨S100000x2, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x256, .bf16⟩
  | .local _ .vmem, ⟨7, _⟩ => ⟨S1x256, .f32⟩
  | .local _ .vmem, ⟨8, _⟩ => ⟨S128x256, .bf16⟩
  | .local _ .vmem, ⟨9, _⟩ => ⟨S256x128, .bf16⟩
  | .local _ .vmem, ⟨10, _⟩ => ⟨S1x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x1, .f32⟩
  | .local _ .vmem, ⟨18, _⟩ => ⟨S4000x1, .f32⟩
  | .local _ .vmem, ⟨19, _⟩ => ⟨S128x128, .bf16⟩
  | .local _ .vmem, ⟨20, _⟩ => ⟨S1x128, .f32⟩
  | .local _ .vmem, ⟨21, _⟩ => ⟨S128x128, .bf16⟩
  | .local _ .vmem, ⟨22, _⟩ => ⟨S128x2, .bf16⟩
  | .local _ .vmem, ⟨23, _⟩ => ⟨S1x2, .f32⟩
  | .local _ .vmem, ⟨24, _⟩ => ⟨S4000x128, .f32⟩
  | .local _ .vmem, ⟨25, _⟩ => ⟨S4000x128, .f32⟩
  | .local _ .vmem, ⟨26, _⟩ => ⟨S4000x2, .f32⟩
  | .local _ .vmem, ⟨27, _⟩ => ⟨S4000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_c_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50_0 : Ref sig .tc := ⟨.hbm, 72, rfl⟩
abbrev main_v50_1 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc1_sem9_0 : DmaSem sig := 26
abbrev cc1_sem9_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x2 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S4000x2 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  transposes_S256x128_S128x256_1_0 : S256x128.Transposes [1, 0] S128x256
  bitsLt_bf16_f32 : FTy.bits .bf16 < FTy.bits .f32
  transposes_S128x256_S256x128_1_0 : S128x256.Transposes [1, 0] S256x128
  transposes_S128x128_S128x128_1_0 : S128x128.Transposes [1, 0] S128x128
  transposes_S2x128_S128x2_1_0 : S2x128.Transposes [1, 0] S128x2
  shapeCasts_S256_S1x256 : S256.ShapeCasts S1x256
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  reduces_S4000x256_S4000 : S4000x256.Reduces [1] S4000
  shapeCasts_S4000_S4000x1 : S4000.ShapeCasts S4000x1
  broadcasts_S4000x1_S4000x256 : S4000x1.Broadcasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S2_S1x2 : S2.ShapeCasts S1x2
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S4000x128_S4000 : S4000x128.Reduces [1] S4000
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  reduces_S4000x2_S4000 : S4000x2.Reduces [1] S4000
  broadcasts_S4000x1_S4000x2 : S4000x1.Broadcasts S4000x2
  inb_S4000x2_S4000x2_0_0 : ∀ a, (![0, 0] : Fin 2 → Nat) a + S4000x2.size a ≤ S4000x2.size a
  h_S4000x2 : 0 < S4000x2.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x256_S4000x256_1_0_0_1_n_n_wf : DotDims.WF S4000x128 S128x256 S4000x256 [1] [0] [0] [1] [] []
  dot_S4000x256_S256x128_S4000x128_1_0_0_1_n_n_wf : DotDims.WF S4000x256 S256x128 S4000x128 [1] [0] [0] [1] [] []
  dot_S4000x128_S128x128_S4000x128_1_0_0_1_n_n_wf : DotDims.WF S4000x128 S128x128 S4000x128 [1] [0] [0] [1] [] []
  dot_S4000x128_S128x2_S4000x2_1_0_0_1_n_n_wf : DotDims.WF S4000x128 S128x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .bf16 = 32 ∨ (Rect.block (s := S256x128) S256x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S100000x128.size a
  hwx0_8 : ∀ i : grid0.Coords, EltTy.bits .f32 = 32 ∨ (Rect.block (s := S100000x128) S4000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x2.size a ≤ S128x2.size a
  hwx1_6 : ∀ i : grid1.Coords, EltTy.bits .bf16 = 32 ∨ (Rect.block (s := S128x2) S128x2.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2.size a ≤ S1x2.size a
  hwx1_7 : ∀ i : grid1.Coords, EltTy.bits .f32 = 32 ∨ (Rect.block (s := S1x2) S1x2.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x128.size a ≤ S100000x128.size a
  hwx1_8 : ∀ i : grid1.Coords, EltTy.bits .f32 = 32 ∨ (Rect.block (s := S100000x128) S4000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x2.size a ≤ S100000x2.size a
  hwx1_9 : ∀ i : grid1.Coords, EltTy.bits .f32 = 32 ∨ (Rect.block (s := S100000x2) S4000x2.size (cc1_transform_9 i) (hinb1_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x2_S4000x2_1_0_0_1_n_n : DotDims S4000x128 S128x2 S4000x2 where
  lhsContracting := [1]
  rhsContracting := [0]
  lhsNonContracting := [0]
  rhsNonContracting := [1]
  lhsBatch := []
  rhsBatch := []
  wf := dot_S4000x128_S128x2_S4000x2_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v36) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v37) S4000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v47) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S128x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S1x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v50_0) S4000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v50_1) S4000x2.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S128x128 : Shape := ⟨2, ![128, 128]⟩
abbrev S2x128 : Shape := ⟨2, ![2, 128]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S1x128 : Shape := ⟨2, ![1, 128]⟩
abbrev S128x2 : Shape := ⟨2, ![128, 2]⟩
abbrev S100000x2 : Shape := ⟨2, ![100000, 2]⟩
abbrev S1x2 : Shape := ⟨2, ![1, 2]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S256x128, .f32⟩
  | 3 => ⟨S256, .f32⟩
  | 4 => ⟨S256x128, .f32⟩
  | 5 => ⟨S128x256, .f32⟩
  | 6 => ⟨S128, .f32⟩
  | 7 => ⟨S128x128, .f32⟩
  | 8 => ⟨S128, .f32⟩
  | 9 => ⟨S128x128, .f32⟩
  | 10 => ⟨S2x128, .f32⟩
  | 11 => ⟨S2, .f32⟩
  | 12 => ⟨S1x1600000, .i32⟩
  | 13 => ⟨S1600000, .i32⟩
  | 14 => ⟨S1x1600000, .i32⟩
  | 15 => ⟨S1600000, .i32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S_, .f32⟩
  | 26 => ⟨S100000x128, .f32⟩
  | 27 => ⟨S1600000x1, .i32⟩
  | 28 => ⟨S100000x128, .f32⟩
  | 29 => ⟨S_, .f32⟩
  | 30 => ⟨S1600000, .f32⟩
  | 31 => ⟨S_, .f32⟩
  | 32 => ⟨S100000, .f32⟩
  | 33 => ⟨S1600000x1, .i32⟩
  | 34 => ⟨S100000, .f32⟩
  | 35 => ⟨S_, .f32⟩
  | 36 => ⟨S100000, .f32⟩
  | 37 => ⟨S100000, .f32⟩
  | 38 => ⟨S100000x1, .f32⟩
  | 39 => ⟨S100000x128, .f32⟩
  | 40 => ⟨S100000x128, .f32⟩
  | 41 => ⟨S128x256, .f32⟩
  | 42 => ⟨S100000x256, .f32⟩
  | 43 => ⟨S1x256, .f32⟩
  | 44 => ⟨S100000x256, .f32⟩
  | 45 => ⟨S100000x256, .f32⟩
  | 46 => ⟨S128x256, .f32⟩
  | 47 => ⟨S100000x256, .f32⟩
  | 48 => ⟨S100000x256, .f32⟩
  | 49 => ⟨S100000x256, .f32⟩
  | 50 => ⟨S_, .f32⟩
  | 51 => ⟨S100000, .f32⟩
  | 52 => ⟨S100000x1, .f32⟩
  | 53 => ⟨S100000x1, .f32⟩
  | 54 => ⟨S_, .f32⟩
  | 55 => ⟨S100000x1, .f32⟩
  | 56 => ⟨S100000x1, .f32⟩
  | 57 => ⟨S100000x256, .f32⟩
  | 58 => ⟨S100000x256, .f32⟩
  | 59 => ⟨S256x128, .f32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x128, .f32⟩
  | 76 => ⟨S_, .f32⟩
  | 77 => ⟨S100000x128, .f32⟩
  | 78 => ⟨S1600000x1, .i32⟩
  | 79 => ⟨S100000x128, .f32⟩
  | 80 => ⟨S_, .f32⟩
  | 81 => ⟨S1600000, .f32⟩
  | 82 => ⟨S_, .f32⟩
  | 83 => ⟨S100000, .f32⟩
  | 84 => ⟨S1600000x1, .i32⟩
  | 85 => ⟨S100000, .f32⟩
  | 86 => ⟨S_, .f32⟩
  | 87 => ⟨S100000, .f32⟩
  | 88 => ⟨S100000, .f32⟩
  | 89 => ⟨S100000x1, .f32⟩
  | 90 => ⟨S100000x128, .f32⟩
  | 91 => ⟨S100000x128, .f32⟩
  | 92 => ⟨S128x128, .f32⟩
  | 93 => ⟨S100000x128, .f32⟩
  | 94 => ⟨S1x128, .f32⟩
  | 95 => ⟨S100000x128, .f32⟩
  | 96 => ⟨S100000x128, .f32⟩
  | 97 => ⟨S128x128, .f32⟩
  | 98 => ⟨S100000x128, .f32⟩
  | 99 => ⟨S100000x128, .f32⟩
  | 100 => ⟨S100000x128, .f32⟩
  | 101 => ⟨S_, .f32⟩
  | 102 => ⟨S100000, .f32⟩
  | 103 => ⟨S100000x1, .f32⟩
  | 104 => ⟨S100000x1, .f32⟩
  | 105 => ⟨S_, .f32⟩
  | 106 => ⟨S100000x1, .f32⟩
  | 107 => ⟨S100000x1, .f32⟩
  | 108 => ⟨S100000x128, .f32⟩
  | 109 => ⟨S100000x128, .f32⟩
  | 110 => ⟨S128x2, .f32⟩
  | 111 => ⟨S100000x2, .f32⟩
  | 112 => ⟨S1x2, .f32⟩
  | 113 => ⟨S100000x2, .f32⟩
  | 114 => ⟨S100000x2, .f32⟩
  | 115 => ⟨S_, .f32⟩
  | 116 => ⟨S100000, .f32⟩
  | 117 => ⟨S_, .f32⟩
  | 118 => ⟨S100000, .f32⟩
  | 119 => ⟨S100000, .f32⟩
  | 120 => ⟨S100000x1, .f32⟩
  | 121 => ⟨S100000x2, .f32⟩
  | 122 => ⟨S100000x2, .f32⟩
  | 123 => ⟨S100000x2, .f32⟩
  | 124 => ⟨S_, .f32⟩
  | 125 => ⟨S100000, .f32⟩
  | 126 => ⟨S100000x1, .f32⟩
  | 127 => ⟨S100000x2, .f32⟩
  | _ => ⟨S100000x128, .f32⟩

abbrev hbmTy0_1 (i : Nat) : BufTy := match i % 128 with
  | 0 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_v0 : Ref sig .tc := ⟨.hbm, 49, rfl⟩
abbrev main_call0_cst : Ref sig .tc := ⟨.hbm, 50, rfl⟩
abbrev main_call0_v1 : Ref sig .tc := ⟨.hbm, 51, rfl⟩
abbrev main_call0_v2 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_5 : Ref sig .tc := ⟨.hbm, 64, rfl⟩
abbrev main_v41 : Ref sig .tc := ⟨.hbm, 65, rfl⟩
abbrev main_v42 : Ref sig .tc := ⟨.hbm, 66, rfl⟩
abbrev main_c_6 : Ref sig .tc := ⟨.hbm, 67, rfl⟩
abbrev main_v43 : Ref sig .tc := ⟨.hbm, 68, rfl⟩
abbrev main_v44 : Ref sig .tc := ⟨.hbm, 69, rfl⟩
abbrev main_c_7 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_8 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_call1_v0 : Ref sig .tc := ⟨.hbm, 100, rfl⟩
abbrev main_call1_cst : Ref sig .tc := ⟨.hbm, 101, rfl⟩
abbrev main_call1_v1 : Ref sig .tc := ⟨.hbm, 102, rfl⟩
abbrev main_call1_v2 : Ref sig .tc := ⟨.hbm, 103, rfl⟩
abbrev main_v70 : Ref sig .tc := ⟨.hbm, 104, rfl⟩
abbrev main_cst_12 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_13 : Ref sig .tc := ⟨.hbm, 115, rfl⟩
abbrev main_v80 : Ref sig .tc := ⟨.hbm, 116, rfl⟩
abbrev main_cst_14 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_15 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S100000_d1 : S100000x256.ReducesTo [1] S100000
  h_S_ : 0 < S_.numel
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S128x128_S128x128_1_0 : S128x128.Transposes [1, 0] S128x128
  reducesTo_S100000x128_S100000_d1 : S100000x128.ReducesTo [1] S100000
  transposes_S2x128_S128x2_1_0 : S2x128.Transposes [1, 0] S128x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  bcast_S100000x1_S100000x2_0_1 : S100000x1.BroadcastsInDim S100000x2 (![0, 1] : Fin 2 → Fin S100000x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KernelRun.lean ====
/- The whole run of the two-region program, with its two results.

   The final memory of every TensorCore holds, at the two result buffers, the arrays that the second
   region's write-backs leave (its output windows 9 and 8 folded over all grid points), and at every
   argument buffer what the launch memory held. The segments, the thread states at the segment
   boundaries and the launch are those of the generated frame module; only the last step, which reads
   the final thread state, is stronger: it also reads the two result buffers. -/
import proofs.«112252_j14345190769012_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any launch memory with zero counters, every weakly fair execution of the program terminates without a
    fault, the two result buffers end at what region 1's output windows 9 and 8 leave after the last grid point,
    and every argument buffer ends as launched. -/
theorem run_values : θ_run defs (onTc (τ := τ) (main (F := F))) ⟨m, fun _ => 0, ρ⟩ (fun r => ∀ c : Dev nD,
      r.2.mem ((c.tc : Thread nD τ).loc main_v50_1) = (dat1 (V3 m ρ) c).arrAt 9 cfg1.N
      ∧ r.2.mem ((c.tc : Thread nD τ).loc main_v50_0) = (dat1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v50_1 (by decide))).trans (W4_arr m ρ c 9),
       (h c _ (mem_uc main_v50_0 (by decide))).trans (W4_arr m ρ c 8),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Run

end
-- ==== Proof.KernelEntry.lean ====
/- The arrays the two regions find at entry, as terms of the program's arguments.

   Region 0 is entered after the first stretch of host operations and region 1 after the second. Each window's
   array at entry is what those operations computed: a reshape, a transposition rounded to bf16, the reciprocal of
   the clamped in-degree, or the neighbour sum (rows gathered at the source indices, summed into the target rows).
   Every equation below reads one buffer through the fold of its stretch; between the stretches, region 0 leaves its
   input arrays as entered, writes its one output array, and touches no other buffer. -/
import proofs.«112252_j14345190769012_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

/-! ## Region 0's entry: the first stretch of host operations, from the launch memory -/

/-- At region 0's entry, the source row of the edge list: row 0 of argument 1, flattened. -/
theorem V1_main_v1 : (V1 m ρ c main_v1 : Vec F S1600000 .i32) = shapeCast _ (extractStridedSlice S1x1600000 ![0, 0] (m ((c.tc : Thread nD τ).loc main_arg1)) slices_S2x1600000_S1x1600000_0_0) shapeCasts_S1x1600000_S1600000 := by
  show StableHlo.after hostOps0 (W0 m ρ c) (Proc.devRef .tc main_v1) = _
  after_results_simp <;> rfl

/-- At region 0's entry, the target row of the edge list: row 1 of argument 1, flattened. -/
theorem V1_main_v3 : (V1 m ρ c main_v3 : Vec F S1600000 .i32) = shapeCast _ (extractStridedSlice S1x1600000 ![1, 0] (m ((c.tc : Thread nD τ).loc main_arg1)) slices_S2x1600000_S1x1600000_1_0) shapeCasts_S1x1600000_S1600000 := by
  show StableHlo.after hostOps0 (W0 m ρ c) (Proc.devRef .tc main_v3) = _
  after_results_simp <;> rfl

/-- At region 0's entry, window 0: the rows of argument 0 gathered at the (wrapped) source indices and summed into the target rows. -/
theorem entry0_0 : (V1 m ρ c main_v22 : Vec F S100000x128 .f32) = Host.scatterAdd (F := F) scatter_S100000x128_S1600000x1_S1600000x128_1_0_0_1 (broadcastInDim S100000x128 ![] bcast_S_S100000x128 (constant (F := F) S_ .f32 0x00000000#32)) (broadcastInDim S1600000x1 ![0] bcast_S1600000_S1600000x1_0 (shapeCast _ (extractStridedSlice S1x1600000 ![1, 0] (m ((c.tc : Thread nD τ).loc main_arg1)) slices_S2x1600000_S1x1600000_1_0) shapeCasts_S1x1600000_S1600000)) (Host.gather gather_S100000x128_S1600000x1_S1600000x128_1_0_n_n_0_1_1128 (m ((c.tc : Thread nD τ).loc main_arg0)) (broadcastInDim S1600000x1 ![0] bcast_S1600000_S1600000x1_0 (select (cmpi .slt (shapeCast _ (extractStridedSlice S1x1600000 ![0, 0] (m ((c.tc : Thread nD τ).loc main_arg1)) slices_S2x1600000_S1x1600000_0_0) shapeCasts_S1x1600000_S1600000) (broadcastInDim S1600000 ![] bcast_S_S1600000 (constantI S_ 32 0#32))) (addi (shapeCast _ (extractStridedSlice S1x1600000 ![0, 0] (m ((c.tc : Thread nD τ).loc main_arg1)) slices_S2x1600000_S1x1600000_0_0) shapeCasts_S1x1600000_S1600000) (broadcastInDim S1600000 ![] bcast_S_S1600000 (constantI S_ 32 100000#32))) (shapeCast _ (extractStridedSlice S1x1600000 ![0, 0] (m ((c.tc : Thread nD τ).loc main_arg1)) slices_S2x1600000_S1x1600000_0_0) shapeCasts_S1x1600000_S1600000)))) := by
  show StableHlo.after hostOps0 (W0 m ρ c) (Proc.devRef .tc main_v22) = _
  after_results_simp <;> rfl

/-- At region 0's entry, window 1: argument 0, untouched by the host operations. -/
theorem entry0_1 : (V1 m ρ c main_arg0 : Vec F S100000x128 .f32) = m ((c.tc : Thread nD τ).loc main_arg0) := by
  show StableHlo.after hostOps0 (W0 m ρ c) (Proc.devRef .tc main_arg0) = _
  after_results_simp <;> rfl

/-- At region 0's entry, window 2: one over the in-degree clamped below at one, as a column. -/
theorem entry0_2 : (V1 m ρ c main_v12 : Vec F S100000x1 .f32) = shapeCast _ (Host.divf (F := F) (broadcastInDim S100000 ![] bcast_S_S100000 (constant (F := F) S_ .f32 0x3F800000#32)) (maximumf (Host.scatterAdd (F := F) scatter_S100000_S1600000x1_S1600000_n_0_0_1 (broadcastInDim S100000 ![] bcast_S_S100000 (constant (F := F) S_ .f32 0x00000000#32)) (broadcastInDim S1600000x1 ![0] bcast_S1600000_S1600000x1_0 (shapeCast _ (extractStridedSlice S1x1600000 ![1, 0] (m ((c.tc : Thread nD τ).loc main_arg1)) slices_S2x1600000_S1x1600000_1_0) shapeCasts_S1x1600000_S1600000)) (broadcastInDim S1600000 ![] bcast_S_S1600000 (constant (F := F) S_ .f32 0x3F800000#32))) (broadcastInDim S100000 ![] bcast_S_S100000 (constant (F := F) S_ .f32 0x3F800000#32)))) shapeCasts_S100000_S100000x1 := by
  show StableHlo.after hostOps0 (W0 m ρ c) (Proc.devRef .tc main_v12) = _
  after_results_simp <;> rfl

/-- At region 0's entry, window 3: argument 2 transposed and rounded to bf16. -/
theorem entry0_3 : (V1 m ρ c main_v24 : Vec F S128x256 .bf16) = truncf .bf16 (transpose S128x256 [1, 0] (m ((c.tc : Thread nD τ).loc main_arg2)) transposes_S256x128_S128x256_1_0) bitsLt_bf16_f32 := by
  show StableHlo.after hostOps0 (W0 m ρ c) (Proc.devRef .tc main_v24) = _
  after_results_simp <;> rfl

/-- At region 0's entry, window 4: argument 3 as a row. -/
theorem entry0_4 : (V1 m ρ c main_v35 : Vec F S1x256 .f32) = shapeCast _ (m ((c.tc : Thread nD τ).loc main_arg3)) shapeCasts_S256_S1x256 := by
  show StableHlo.after hostOps0 (W0 m ρ c) (Proc.devRef .tc main_v35) = _
  after_results_simp <;> rfl

/-- At region 0's entry, window 5: argument 4 transposed and rounded to bf16. -/
theorem entry0_5 : (V1 m ρ c main_v26 : Vec F S128x256 .bf16) = truncf .bf16 (transpose S128x256 [1, 0] (m ((c.tc : Thread nD τ).loc main_arg4)) transposes_S256x128_S128x256_1_0) bitsLt_bf16_f32 := by
  show StableHlo.after hostOps0 (W0 m ρ c) (Proc.devRef .tc main_v26) = _
  after_results_simp <;> rfl

/-- At region 0's entry, window 6: argument 5 transposed and rounded to bf16. -/
theorem entry0_6 : (V1 m ρ c main_v28 : Vec F S256x128 .bf16) = truncf .bf16 (transpose S256x128 [1, 0] (m ((c.tc : Thread nD τ).loc main_arg5)) transposes_S128x256_S256x128_1_0) bitsLt_bf16_f32 := by
  show StableHlo.after hostOps0 (W0 m ρ c) (Proc.devRef .tc main_v28) = _
  after_results_simp <;> rfl

/-- At region 0's entry, window 7: argument 6 as a row. -/
theorem entry0_7 : (V1 m ρ c main_v36 : Vec F S1x128 .f32) = shapeCast _ (m ((c.tc : Thread nD τ).loc main_arg6)) shapeCasts_S128_S1x128 := by
  show StableHlo.after hostOps0 (W0 m ρ c) (Proc.devRef .tc main_v36) = _
  after_results_simp <;> rfl

/-- At region 0's entry, argument 7 transposed and rounded to bf16 (read by region 1). -/
theorem V1_main_v30 : (V1 m ρ c main_v30 : Vec F S128x128 .bf16) = truncf .bf16 (transpose S128x128 [1, 0] (m ((c.tc : Thread nD τ).loc main_arg7)) transposes_S128x128_S128x128_1_0) bitsLt_bf16_f32 := by
  show StableHlo.after hostOps0 (W0 m ρ c) (Proc.devRef .tc main_v30) = _
  after_results_simp <;> rfl

/-- At region 0's entry, argument 9 transposed and rounded to bf16 (read by region 1). -/
theorem V1_main_v32 : (V1 m ρ c main_v32 : Vec F S128x128 .bf16) = truncf .bf16 (transpose S128x128 [1, 0] (m ((c.tc : Thread nD τ).loc main_arg9)) transposes_S128x128_S128x128_1_0) bitsLt_bf16_f32 := by
  show StableHlo.after hostOps0 (W0 m ρ c) (Proc.devRef .tc main_v32) = _
  after_results_simp <;> rfl

/-- At region 0's entry, argument 10 transposed and rounded to bf16 (read by region 1). -/
theorem V1_main_v34 : (V1 m ρ c main_v34 : Vec F S128x2 .bf16) = truncf .bf16 (transpose S128x2 [1, 0] (m ((c.tc : Thread nD τ).loc main_arg10)) transposes_S2x128_S128x2_1_0) bitsLt_bf16_f32 := by
  show StableHlo.after hostOps0 (W0 m ρ c) (Proc.devRef .tc main_v34) = _
  after_results_simp <;> rfl

/-! ### The same, with the window's array named by its index -/

theorem entry0_0' : (V1 m ρ c (Pipeline.arrRef spec0 (0 : Fin cfg0.W)) : Vec F S100000x128 .f32) = Host.scatterAdd (F := F) scatter_S100000x128_S1600000x1_S1600000x128_1_0_0_1 (broadcastInDim S100000x128 ![] bcast_S_S100000x128 (constant (F := F) S_ .f32 0x00000000#32)) (broadcastInDim S1600000x1 ![0] bcast_S1600000_S1600000x1_0 (shapeCast _ (extractStridedSlice S1x1600000 ![1, 0] (m ((c.tc : Thread nD τ).loc main_arg1)) slices_S2x1600000_S1x1600000_1_0) shapeCasts_S1x1600000_S1600000)) (Host.gather gather_S100000x128_S1600000x1_S1600000x128_1_0_n_n_0_1_1128 (m ((c.tc : Thread nD τ).loc main_arg0)) (broadcastInDim S1600000x1 ![0] bcast_S1600000_S1600000x1_0 (select (cmpi .slt (shapeCast _ (extractStridedSlice S1x1600000 ![0, 0] (m ((c.tc : Thread nD τ).loc main_arg1)) slices_S2x1600000_S1x1600000_0_0) shapeCasts_S1x1600000_S1600000) (broadcastInDim S1600000 ![] bcast_S_S1600000 (constantI S_ 32 0#32))) (addi (shapeCast _ (extractStridedSlice S1x1600000 ![0, 0] (m ((c.tc : Thread nD τ).loc main_arg1)) slices_S2x1600000_S1x1600000_0_0) shapeCasts_S1x1600000_S1600000) (broadcastInDim S1600000 ![] bcast_S_S1600000 (constantI S_ 32 100000#32))) (shapeCast _ (extractStridedSlice S1x1600000 ![0, 0] (m ((c.tc : Thread nD τ).loc main_arg1)) slices_S2x1600000_S1x1600000_0_0) shapeCasts_S1x1600000_S1600000)))) := entry0_0 m ρ c
theorem entry0_1' : (V1 m ρ c (Pipeline.arrRef spec0 (1 : Fin cfg0.W)) : Vec F S100000x128 .f32) = m ((c.tc : Thread nD τ).loc main_arg0) := entry0_1 m ρ c
theorem entry0_2' : (V1 m ρ c (Pipeline.arrRef spec0 (2 : Fin cfg0.W)) : Vec F S100000x1 .f32) = shapeCast _ (Host.divf (F := F) (broadcastInDim S100000 ![] bcast_S_S100000 (constant (F := F) S_ .f32 0x3F800000#32)) (maximumf (Host.scatterAdd (F := F) scatter_S100000_S1600000x1_S1600000_n_0_0_1 (broadcastInDim S100000 ![] bcast_S_S100000 (constant (F := F) S_ .f32 0x00000000#32)) (broadcastInDim S1600000x1 ![0] bcast_S1600000_S1600000x1_0 (shapeCast _ (extractStridedSlice S1x1600000 ![1, 0] (m ((c.tc : Thread nD τ).loc main_arg1)) slices_S2x1600000_S1x1600000_1_0) shapeCasts_S1x1600000_S1600000)) (broadcastInDim S1600000 ![] bcast_S_S1600000 (constant (F := F) S_ .f32 0x3F800000#32))) (broadcastInDim S100000 ![] bcast_S_S100000 (constant (F := F) S_ .f32 0x3F800000#32)))) shapeCasts_S100000_S100000x1 := entry0_2 m ρ c
theorem entry0_3' : (V1 m ρ c (Pipeline.arrRef spec0 (3 : Fin cfg0.W)) : Vec F S128x256 .bf16) = truncf .bf16 (transpose S128x256 [1, 0] (m ((c.tc : Thread nD τ).loc main_arg2)) transposes_S256x128_S128x256_1_0) bitsLt_bf16_f32 := entry0_3 m ρ c
theorem entry0_4' : (V1 m ρ c (Pipeline.arrRef spec0 (4 : Fin cfg0.W)) : Vec F S1x256 .f32) = shapeCast _ (m ((c.tc : Thread nD τ).loc main_arg3)) shapeCasts_S256_S1x256 := entry0_4 m ρ c
theorem entry0_5' : (V1 m ρ c (Pipeline.arrRef spec0 (5 : Fin cfg0.W)) : Vec F S128x256 .bf16) = truncf .bf16 (transpose S128x256 [1, 0] (m ((c.tc : Thread nD τ).loc main_arg4)) transposes_S256x128_S128x256_1_0) bitsLt_bf16_f32 := entry0_5 m ρ c
theorem entry0_6' : (V1 m ρ c (Pipeline.arrRef spec0 (6 : Fin cfg0.W)) : Vec F S256x128 .bf16) = truncf .bf16 (transpose S256x128 [1, 0] (m ((c.tc : Thread nD τ).loc main_arg5)) transposes_S128x256_S256x128_1_0) bitsLt_bf16_f32 := entry0_6 m ρ c
theorem entry0_7' : (V1 m ρ c (Pipeline.arrRef spec0 (7 : Fin cfg0.W)) : Vec F S1x128 .f32) = shapeCast _ (m ((c.tc : Thread nD τ).loc main_arg6)) shapeCasts_S128_S1x128 := entry0_7 m ρ c

/-! ## Region 1's entry: the second stretch, from region 0's exit -/

/-- Through the second stretch of host operations, the buffer region 0 wrote is unchanged: at region 1's entry
    window 1 holds region 0's output array. -/
theorem entry1_1 : V3 m ρ c main_v37 = (dat0 (V1 m ρ) c).arrAt 8 cfg0.N := by
  show StableHlo.after hostOps1 (W2 m ρ c) (Proc.devRef .tc main_v37) = _
  after_results
  exact W2_arr m ρ c 8

/-- Window 2 of region 1 is the array window 2 of region 0 read: an input window leaves its array as entered, and
    the second stretch does not write it. -/
theorem entry1_2 : V3 m ρ c main_v12 = V1 m ρ c main_v12 := by
  show StableHlo.after hostOps1 (W2 m ρ c) (Proc.devRef .tc main_v12) = _
  after_results
  exact (W2_arr m ρ c 2).trans (((dat0 (V1 m ρ) c).arrAt_in 2 rfl _).trans (A_eq0 (V1 m ρ) c 2))

/-- Window 3 of region 1: written by the first stretch, touched by neither region 0 nor the second stretch. -/
theorem entry1_3 : V3 m ρ c main_v30 = V1 m ρ c main_v30 := by
  show StableHlo.after hostOps1 (W2 m ρ c) (Proc.devRef .tc main_v30) = _
  after_results
  exact W2_of_ne m ρ c main_v30 (by decide)

/-- Window 5 of region 1: written by the first stretch, touched by neither region 0 nor the second stretch. -/
theorem entry1_5 : V3 m ρ c main_v32 = V1 m ρ c main_v32 := by
  show StableHlo.after hostOps1 (W2 m ρ c) (Proc.devRef .tc main_v32) = _
  after_results
  exact W2_of_ne m ρ c main_v32 (by decide)

/-- Window 6 of region 1: written by the first stretch, touched by neither region 0 nor the second stretch. -/
theorem entry1_6 : V3 m ρ c main_v34 = V1 m ρ c main_v34 := by
  show StableHlo.after hostOps1 (W2 m ρ c) (Proc.devRef .tc main_v34) = _
  after_results
  exact W2_of_ne m ρ c main_v34 (by decide)

/-- An argument buffer read at region 0's exit is the launch memory's. -/
theorem W2_main_arg8 : W2 m ρ c (Proc.devRef .tc main_arg8) = m ((c.tc : Thread nD τ).loc main_arg8) := by
  refine (W2_of_ne m ρ c main_arg8 (by decide)).trans ?_
  show StableHlo.after hostOps0 (W0 m ρ c) (Proc.devRef .tc main_arg8) = _
  after_results <;> rfl
theorem W2_main_arg11 : W2 m ρ c (Proc.devRef .tc main_arg11) = m ((c.tc : Thread nD τ).loc main_arg11) := by
  refine (W2_of_ne m ρ c main_arg11 (by decide)).trans ?_
  show StableHlo.after hostOps0 (W0 m ρ c) (Proc.devRef .tc main_arg11) = _
  after_results <;> rfl

/-- Window 4 of region 1: argument 8 as a row. -/
theorem entry1_4 : (V3 m ρ c main_v48 : Vec F S1x128 .f32) = shapeCast _ (m ((c.tc : Thread nD τ).loc main_arg8)) shapeCasts_S128_S1x128 := by
  show StableHlo.after hostOps1 (W2 m ρ c) (Proc.devRef .tc main_v48) = _
  after_results
  rw [W2_main_arg8 m ρ c]; rfl

/-- Window 7 of region 1: argument 11 as a row. -/
theorem entry1_7 : (V3 m ρ c main_v49 : Vec F S1x2 .f32) = shapeCast _ (m ((c.tc : Thread nD τ).loc main_arg11)) shapeCasts_S2_S1x2 := by
  show StableHlo.after hostOps1 (W2 m ρ c) (Proc.devRef .tc main_v49) = _
  after_results
  rw [W2_main_arg11 m ρ c]; rfl

/-- Window 0 of region 1, over the two index rows as region 0 found them: the rows of region 0's output gathered
    at the (wrapped) source indices and summed into the target rows. -/
theorem entry1_0_rows : (V3 m ρ c main_v47 : Vec F S100000x128 .f32) = Host.scatterAdd (F := F) scatter_S100000x128_S1600000x1_S1600000x128_1_0_0_1 (broadcastInDim S100000x128 ![] bcast_S_S100000x128 (constant (F := F) S_ .f32 0x00000000#32)) (broadcastInDim S1600000x1 ![0] bcast_S1600000_S1600000x1_0 (V1 m ρ c main_v3)) (Host.gather gather_S100000x128_S1600000x1_S1600000x128_1_0_n_n_0_1_1128 ((dat0 (V1 m ρ) c).arrAt 8 cfg0.N) (broadcastInDim S1600000x1 ![0] bcast_S1600000_S1600000x1_0 (select (cmpi .slt (V1 m ρ c main_v1) (broadcastInDim S1600000 ![] bcast_S_S1600000 (constantI S_ 32 0#32))) (addi (V1 m ρ c main_v1) (broadcastInDim S1600000 ![] bcast_S_S1600000 (constantI S_ 32 100000#32))) (V1 m ρ c main_v1)))) := by
  have e37 : W2 m ρ c (Proc.devRef .tc main_v37) = (dat0 (V1 m ρ) c).arrAt 8 cfg0.N := W2_arr m ρ c 8
  have e1 : W2 m ρ c (Proc.devRef .tc main_v1) = V1 m ρ c main_v1 := W2_of_ne m ρ c main_v1 (by decide)
  have e3 : W2 m ρ c (Proc.devRef .tc main_v3) = V1 m ρ c main_v3 := W2_of_ne m ρ c main_v3 (by decide)
  show StableHlo.after hostOps1 (W2 m ρ c) (Proc.devRef .tc main_v47) = _
  after_results_simp
  rw [e37, e1, e3]

/-- Window 0 of region 1, over argument 1: the same with the two index rows read off the edge list. -/
theorem entry1_0 : (V3 m ρ c main_v47 : Vec F S100000x128 .f32) = Host.scatterAdd (F := F) scatter_S100000x128_S1600000x1_S1600000x128_1_0_0_1 (broadcastInDim S100000x128 ![] bcast_S_S100000x128 (constant (F := F) S_ .f32 0x00000000#32)) (broadcastInDim S1600000x1 ![0] bcast_S1600000_S1600000x1_0 (shapeCast _ (extractStridedSlice S1x1600000 ![1, 0] (m ((c.tc : Thread nD τ).loc main_arg1)) slices_S2x1600000_S1x1600000_1_0) shapeCasts_S1x1600000_S1600000)) (Host.gather gather_S100000x128_S1600000x1_S1600000x128_1_0_n_n_0_1_1128 ((dat0 (V1 m ρ) c).arrAt 8 cfg0.N) (broadcastInDim S1600000x1 ![0] bcast_S1600000_S1600000x1_0 (select (cmpi .slt (shapeCast _ (extractStridedSlice S1x1600000 ![0, 0] (m ((c.tc : Thread nD τ).loc main_arg1)) slices_S2x1600000_S1x1600000_0_0) shapeCasts_S1x1600000_S1600000) (broadcastInDim S1600000 ![] bcast_S_S1600000 (constantI S_ 32 0#32))) (addi (shapeCast _ (extractStridedSlice S1x1600000 ![0, 0] (m ((c.tc : Thread nD τ).loc main_arg1)) slices_S2x1600000_S1x1600000_0_0) shapeCasts_S1x1600000_S1600000) (broadcastInDim S1600000 ![] bcast_S_S1600000 (constantI S_ 32 100000#32))) (shapeCast _ (extractStridedSlice S1x1600000 ![0, 0] (m ((c.tc : Thread nD τ).loc main_arg1)) slices_S2x1600000_S1x1600000_0_0) shapeCasts_S1x1600000_S1600000)))) := by
  rw [entry1_0_rows m ρ c, V1_main_v1 m ρ c, V1_main_v3 m ρ c]

/-- Window 2 of region 1 as a term of argument 1. -/
theorem entry1_2_term : (V3 m ρ c main_v12 : Vec F S100000x1 .f32) = shapeCast _ (Host.divf (F := F) (broadcastInDim S100000 ![] bcast_S_S100000 (constant (F := F) S_ .f32 0x3F800000#32)) (maximumf (Host.scatterAdd (F := F) scatter_S100000_S1600000x1_S1600000_n_0_0_1 (broadcastInDim S100000 ![] bcast_S_S100000 (constant (F := F) S_ .f32 0x00000000#32)) (broadcastInDim S1600000x1 ![0] bcast_S1600000_S1600000x1_0 (shapeCast _ (extractStridedSlice S1x1600000 ![1, 0] (m ((c.tc : Thread nD τ).loc main_arg1)) slices_S2x1600000_S1x1600000_1_0) shapeCasts_S1x1600000_S1600000)) (broadcastInDim S1600000 ![] bcast_S_S1600000 (constant (F := F) S_ .f32 0x3F800000#32))) (broadcastInDim S100000 ![] bcast_S_S100000 (constant (F := F) S_ .f32 0x3F800000#32)))) shapeCasts_S100000_S100000x1 :=
  (entry1_2 m ρ c).trans (entry0_2 m ρ c)
/-- Window 3 of region 1 as a term of argument 7. -/
theorem entry1_3_term : (V3 m ρ c main_v30 : Vec F S128x128 .bf16) = truncf .bf16 (transpose S128x128 [1, 0] (m ((c.tc : Thread nD τ).loc main_arg7)) transposes_S128x128_S128x128_1_0) bitsLt_bf16_f32 :=
  (entry1_3 m ρ c).trans (V1_main_v30 m ρ c)
/-- Window 5 of region 1 as a term of argument 9. -/
theorem entry1_5_term : (V3 m ρ c main_v32 : Vec F S128x128 .bf16) = truncf .bf16 (transpose S128x128 [1, 0] (m ((c.tc : Thread nD τ).loc main_arg9)) transposes_S128x128_S128x128_1_0) bitsLt_bf16_f32 :=
  (entry1_5 m ρ c).trans (V1_main_v32 m ρ c)
/-- Window 6 of region 1 as a term of argument 10. -/
theorem entry1_6_term : (V3 m ρ c main_v34 : Vec F S128x2 .bf16) = truncf .bf16 (transpose S128x2 [1, 0] (m ((c.tc : Thread nD τ).loc main_arg10)) transposes_S2x128_S128x2_1_0) bitsLt_bf16_f32 :=
  (entry1_6 m ρ c).trans (V1_main_v34 m ρ c)

/-! ### The same, with the window's array named by its index -/

theorem entry1_0' : (V3 m ρ c (Pipeline.arrRef spec1 (0 : Fin cfg1.W)) : Vec F S100000x128 .f32) = Host.scatterAdd (F := F) scatter_S100000x128_S1600000x1_S1600000x128_1_0_0_1 (broadcastInDim S100000x128 ![] bcast_S_S100000x128 (constant (F := F) S_ .f32 0x00000000#32)) (broadcastInDim S1600000x1 ![0] bcast_S1600000_S1600000x1_0 (shapeCast _ (extractStridedSlice S1x1600000 ![1, 0] (m ((c.tc : Thread nD τ).loc main_arg1)) slices_S2x1600000_S1x1600000_1_0) shapeCasts_S1x1600000_S1600000)) (Host.gather gather_S100000x128_S1600000x1_S1600000x128_1_0_n_n_0_1_1128 ((dat0 (V1 m ρ) c).arrAt 8 cfg0.N) (broadcastInDim S1600000x1 ![0] bcast_S1600000_S1600000x1_0 (select (cmpi .slt (shapeCast _ (extractStridedSlice S1x1600000 ![0, 0] (m ((c.tc : Thread nD τ).loc main_arg1)) slices_S2x1600000_S1x1600000_0_0) shapeCasts_S1x1600000_S1600000) (broadcastInDim S1600000 ![] bcast_S_S1600000 (constantI S_ 32 0#32))) (addi (shapeCast _ (extractStridedSlice S1x1600000 ![0, 0] (m ((c.tc : Thread nD τ).loc main_arg1)) slices_S2x1600000_S1x1600000_0_0) shapeCasts_S1x1600000_S1600000) (broadcastInDim S1600000 ![] bcast_S_S1600000 (constantI S_ 32 100000#32))) (shapeCast _ (extractStridedSlice S1x1600000 ![0, 0] (m ((c.tc : Thread nD τ).loc main_arg1)) slices_S2x1600000_S1x1600000_0_0) shapeCasts_S1x1600000_S1600000)))) := entry1_0 m ρ c
theorem entry1_1' : (V3 m ρ c (Pipeline.arrRef spec1 (1 : Fin cfg1.W)) : Vec F S100000x128 .f32) = (dat0 (V1 m ρ) c).arrAt 8 cfg0.N := entry1_1 m ρ c
theorem entry1_2' : (V3 m ρ c (Pipeline.arrRef spec1 (2 : Fin cfg1.W)) : Vec F S100000x1 .f32) = shapeCast _ (Host.divf (F := F) (broadcastInDim S100000 ![] bcast_S_S100000 (constant (F := F) S_ .f32 0x3F800000#32)) (maximumf (Host.scatterAdd (F := F) scatter_S100000_S1600000x1_S1600000_n_0_0_1 (broadcastInDim S100000 ![] bcast_S_S100000 (constant (F := F) S_ .f32 0x00000000#32)) (broadcastInDim S1600000x1 ![0] bcast_S1600000_S1600000x1_0 (shapeCast _ (extractStridedSlice S1x1600000 ![1, 0] (m ((c.tc : Thread nD τ).loc main_arg1)) slices_S2x1600000_S1x1600000_1_0) shapeCasts_S1x1600000_S1600000)) (broadcastInDim S1600000 ![] bcast_S_S1600000 (constant (F := F) S_ .f32 0x3F800000#32))) (broadcastInDim S100000 ![] bcast_S_S100000 (constant (F := F) S_ .f32 0x3F800000#32)))) shapeCasts_S100000_S100000x1 := entry1_2_term m ρ c
theorem entry1_3' : (V3 m ρ c (Pipeline.arrRef spec1 (3 : Fin cfg1.W)) : Vec F S128x128 .bf16) = truncf .bf16 (transpose S128x128 [1, 0] (m ((c.tc : Thread nD τ).loc main_arg7)) transposes_S128x128_S128x128_1_0) bitsLt_bf16_f32 := entry1_3_term m ρ c
theorem entry1_4' : (V3 m ρ c (Pipeline.arrRef spec1 (4 : Fin cfg1.W)) : Vec F S1x128 .f32) = shapeCast _ (m ((c.tc : Thread nD τ).loc main_arg8)) shapeCasts_S128_S1x128 := entry1_4 m ρ c
theorem entry1_5' : (V3 m ρ c (Pipeline.arrRef spec1 (5 : Fin cfg1.W)) : Vec F S128x128 .bf16) = truncf .bf16 (transpose S128x128 [1, 0] (m ((c.tc : Thread nD τ).loc main_arg9)) transposes_S128x128_S128x128_1_0) bitsLt_bf16_f32 := entry1_5_term m ρ c
theorem entry1_6' : (V3 m ρ c (Pipeline.arrRef spec1 (6 : Fin cfg1.W)) : Vec F S128x2 .bf16) = truncf .bf16 (transpose S128x2 [1, 0] (m ((c.tc : Thread nD τ).loc main_arg10)) transposes_S2x128_S128x2_1_0) bitsLt_bf16_f32 := entry1_6_term m ρ c
theorem entry1_7' : (V3 m ρ c (Pipeline.arrRef spec1 (7 : Fin cfg1.W)) : Vec F S1x2 .f32) = shapeCast _ (m ((c.tc : Thread nD τ).loc main_arg11)) shapeCasts_S2_S1x2 := entry1_7 m ρ c

end Cert.KernelIdeal.Run

end
-- ==== Proof.AggSame.lean ====
/- The neighbour sum and the neighbour count, named once, and identified with the reference program's stages.

   Both programs compute, from the edge list (argument 1: a row of source indices over a row of target indices),
   the sum over the edges into each target row of the source's row of an array `A` — the source index wrapped
   once if negative — and the number of edges into each target row. The two-region program does so twice for the sum
   (at argument 0 before region 0, at region 0's output before region 1) and once for the count; the reference prints
   the same operations. Here both are definitions over `A` and the edge list, the regions' entry arrays are those
   definitions, and each equals the reference's stage of the same operations: the two printed terms differ only in
   the names of their shape and dimension-number constants, which unfold to the same literals. -/
import proofs.«112252_j14345190769012_2_alg».proof.Proof.KernelEntry
import proofs.«112252_j14345190769012_2_alg».proof.Proof.Gen.ReferenceIdeal.Read

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The neighbour sum: the rows of `A` gathered at the wrapped source indices, summed into the target rows. -/
def KAgg (A : Vec Ideal S100000x128 .f32) (X1 : (⟨S2x1600000, .i32⟩ : BufTy).Contents (Elt Ideal)) : Vec Ideal S100000x128 .f32 :=
  Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (shapeCast _ (extractStridedSlice S1x1600000 ![1, 0] X1 slices_S2x1600000_S1x1600000_1_0) shapeCasts_S1x1600000_S1600000)) (Host.gather gather_S100000x128_S1600000x1_S1600000x128_1_0_n_n_0_1_1128 A (broadcastInDim S1600000x1 ![0] bcast_S1600000_S1600000x1_0 (select (cmpi .slt (shapeCast _ (extractStridedSlice S1x1600000 ![0, 0] X1 slices_S2x1600000_S1x1600000_0_0) shapeCasts_S1x1600000_S1600000) (broadcastInDim S1600000 ![] bcast_S_S1600000 (constantI S_ 32 0#32))) (addi (shapeCast _ (extractStridedSlice S1x1600000 ![0, 0] X1 slices_S2x1600000_S1x1600000_0_0) shapeCasts_S1x1600000_S1600000) (broadcastInDim S1600000 ![] bcast_S_S1600000 (constantI S_ 32 100000#32))) (shapeCast _ (extractStridedSlice S1x1600000 ![0, 0] X1 slices_S2x1600000_S1x1600000_0_0) shapeCasts_S1x1600000_S1600000))))

/-- The neighbour count: a one summed into its target row for every edge. -/
def KCnt (X1 : (⟨S2x1600000, .i32⟩ : BufTy).Contents (Elt Ideal)) : Vec Ideal S100000 .f32 :=
  Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![1, 0] X1 slices_S2x1600000_S1x1600000_1_0) shapeCasts_S1x1600000_S1600000)) (broadcastInDim S1600000 ![] bcast_S_S1600000 (constant (F := Ideal) S_ .f32 0x3F800000#32))

variable (c : Dev nD)

/-- Region 0's window 0 is the neighbour sum of argument 0. -/
theorem agg0 : V1 m ρ c main_v22 = KAgg (m ((c.tc : Thread nD τ).loc main_arg0)) (m ((c.tc : Thread nD τ).loc main_arg1)) :=
  entry0_0 (F := Ideal) m ρ c

/-- Region 1's window 0 is the neighbour sum of region 0's output array. -/
theorem agg1 : V3 m ρ c main_v47 = KAgg ((dat0 (V1 m ρ) c).arrAt 8 cfg0.N) (m ((c.tc : Thread nD τ).loc main_arg1)) :=
  entry1_0 (F := Ideal) m ρ c

/-- Region 0's window 2 is one over the neighbour count clamped below at one, as a column. -/
theorem cinv0 : (V1 m ρ c main_v12 : Vec Ideal S100000x1 .f32) = shapeCast _ (Host.divf (F := Ideal) (broadcastInDim S100000 ![] bcast_S_S100000 (constant (F := Ideal) S_ .f32 0x3F800000#32)) (maximumf (KCnt (m ((c.tc : Thread nD τ).loc main_arg1))) (broadcastInDim S100000 ![] bcast_S_S100000 (constant (F := Ideal) S_ .f32 0x3F800000#32)))) shapeCasts_S100000_S100000x1 :=
  entry0_2 (F := Ideal) m ρ c

/-- Region 1's window 2 is the same column. -/
theorem cinv1 : (V3 m ρ c main_v12 : Vec Ideal S100000x1 .f32) = shapeCast _ (Host.divf (F := Ideal) (broadcastInDim S100000 ![] bcast_S_S100000 (constant (F := Ideal) S_ .f32 0x3F800000#32)) (maximumf (KCnt (m ((c.tc : Thread nD τ).loc main_arg1))) (broadcastInDim S100000 ![] bcast_S_S100000 (constant (F := Ideal) S_ .f32 0x3F800000#32)))) shapeCasts_S100000_S100000x1 :=
  entry1_2_term (F := Ideal) m ρ c

/-! ## The reference's stages -/

section Same
open Cert.ReferenceIdeal.Read

/-- The reference's first neighbour sum is the same operations. -/
theorem same13 (X0 : (⟨Cert.ReferenceIdeal.S100000x128, .f32⟩ : BufTy).Contents (Elt Ideal)) (X1 : (⟨Cert.ReferenceIdeal.S2x1600000, .i32⟩ : BufTy).Contents (Elt Ideal)) :
    KAgg X0 X1 = val_main_v13 (F := Ideal) X0 X1 := by
  unfold KAgg val_main_v13 val_main_v11 val_main_v12 val_main_v10 val_main_v9 val_main_v8 val_main_v5 val_main_v7
    val_main_v4 val_main_v6 val_main_v3 val_main_v2 val_main_v1 val_main_v0 val_main_c val_main_c_0 val_main_cst
  rfl

/-- The reference's first neighbour count is the same operations. -/
theorem same17 (X1 : (⟨Cert.ReferenceIdeal.S2x1600000, .i32⟩ : BufTy).Contents (Elt Ideal)) : KCnt X1 = val_main_v17 (F := Ideal) X1 := by
  unfold KCnt val_main_v17 val_main_v15 val_main_v16 val_main_v14 val_main_v3 val_main_v2 val_main_cst_1 val_main_cst_2
  rfl

/-- The reference's second neighbour count is the same operations. -/
theorem same56 (X1 : (⟨Cert.ReferenceIdeal.S2x1600000, .i32⟩ : BufTy).Contents (Elt Ideal)) : KCnt X1 = val_main_v56 (F := Ideal) X1 := by
  unfold KCnt val_main_v56 val_main_v54 val_main_v55 val_main_v53 val_main_v3 val_main_v2 val_main_cst_9 val_main_cst_10
  rfl

/-- The reference's second neighbour sum is the neighbour sum of its stage 42. -/
theorem same52 (X0 : (⟨Cert.ReferenceIdeal.S100000x128, .f32⟩ : BufTy).Contents (Elt Ideal)) (X1 : (⟨Cert.ReferenceIdeal.S2x1600000, .i32⟩ : BufTy).Contents (Elt Ideal)) (X2 : (⟨Cert.ReferenceIdeal.S256x128, .f32⟩ : BufTy).Contents (Elt Ideal)) (X3 : (⟨Cert.ReferenceIdeal.S256, .f32⟩ : BufTy).Contents (Elt Ideal)) (X4 : (⟨Cert.ReferenceIdeal.S256x128, .f32⟩ : BufTy).Contents (Elt Ideal)) (X5 : (⟨Cert.ReferenceIdeal.S128x256, .f32⟩ : BufTy).Contents (Elt Ideal)) (X6 : (⟨Cert.ReferenceIdeal.S128, .f32⟩ : BufTy).Contents (Elt Ideal)) :
    KAgg (val_main_v42 (F := Ideal) X0 X1 X2 X3 X4 X5 X6) X1 = val_main_v52 (F := Ideal) X0 X1 X2 X3 X4 X5 X6 := by
  unfold KAgg val_main_v52 val_main_v50 val_main_v51 val_main_v49 val_main_v48 val_main_v47 val_main_v44 val_main_v46
    val_main_v43 val_main_v45 val_main_v3 val_main_v2 val_main_v1 val_main_v0 val_main_c_6 val_main_c_7 val_main_cst_8
  rfl

end Same

end Cert.KernelIdeal.Run

end
-- ==== Proof.LibMatmul.lean ====
/-
  A matrix product into a zero accumulator, read at an index, as a plain sum of products over the contracted axis.

  For a product of an n-by-K array with a K-by-M array whose dimension numbers contract the left operand's columns
  against the right operand's rows, the entry at (p, q) is the sum over k of left(p, k) · right(k, q). The four facts
  about the dimension numbers that say so (which coordinate of each operand index comes from the output index and which
  from the contraction index) are taken as hypotheses, since each printed record proves them by unfolding.
-/
import Idealize.ShloMosaic.PureOps.Ideal.Laws
import Idealize.ShloMosaic.Lib.ValueIdx

noncomputable section

open scoped BigOperators

namespace Cert.Lib.Matmul

open Idealize.ShloMosaic Idealize.ShloMosaic.ValueIdx

/-- A kernel's matrix product into the zero splat, at the ideal values, read at `(p, q)`: the sum over the contracted
    axis of the left operand's row `p` times the right operand's column `q`. -/
theorem matmul_zero_ix2 {n K M : ℕ} {φ₁ φ₂ : FTy}
    (d : DotDims (⟨2, ![n, K]⟩ : Shape) (⟨2, ![K, M]⟩ : Shape) (⟨2, ![n, M]⟩ : Shape)) (prec : Option ContractPrecision)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The host's `dot_general` with the same dimension numbers, read the same way. -/
theorem dotGeneral_ix2 {n K M : ℕ} {φ₁ φ₂ : FTy}
    (d : DotDims (⟨2, ![n, K]⟩ : Shape) (⟨2, ![K, M]⟩ : Shape) (⟨2, ![n, M]⟩ : Shape)) (prec : Option ContractPrecision)
    (sched : HostSchedule)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.dotGeneral d prec sched lhs rhs (ix2 p q) = ∑ k : Fin K, lhs (ix2 p k) * rhs (ix2 k q) := by
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Lib.Matmul

end
-- ==== Proof.LibDotStd.lean ====
/-
  The index maps of a plain matrix product's dimension numbers.

  For dimension numbers with no batch axes, one free axis on each side and one contracted axis on each side — the shape
  of every row-times-column product — the left operand's free coordinate is the result's first coordinate and the
  right operand's free coordinate is the result's second, whatever the contraction position is. Together with the
  library's facts for the contracted coordinate these are the four index facts a sum-of-products reading needs.
-/
import Idealize.ShloMosaic.PureOps.Dims

namespace Cert.Lib.DotStd

open Idealize.ShloMosaic

variable {sl sr so : Shape} (d : DotDims sl sr so)

/-- With no batch axis and `a` the one free axis of the left operand, the left index on `a` is the result's first
    coordinate. -/
theorem lhsIdx_free (a : Fin sl.rank) (hb : d.lhsBatch = []) (hn : d.lhsNonContracting = [a]) (h0 : 0 < so.rank)
    (j : so.Idx) (c : d.contr.Idx) : (d.lhsIdx j c a).val = (j ⟨0, h0⟩).val := by
  unfold DotDims.lhsIdx
  rw [dif_neg (by rw [hb]; exact List.not_mem_nil), dif_pos (by rw [hn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one free axis on the left and `a` the one free axis of the right operand, the right index on
    `a` is the result's second coordinate. -/
theorem rhsIdx_free (a : Fin sr.rank) (hb : d.rhsBatch = []) (hlb : d.lhsBatch = []) (al : Fin sl.rank)
    (hln : d.lhsNonContracting = [al]) (hn : d.rhsNonContracting = [a]) (h1 : 1 < so.rank)
    (j : so.Idx) (c : d.contr.Idx) : (d.rhsIdx j c a).val = (j ⟨1, h1⟩).val := by
  unfold DotDims.rhsIdx
  rw [dif_neg (by rw [hb]; exact List.not_mem_nil), dif_pos (by rw [hn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Cert.Lib.DotStd
-- ==== Proof.LibStdMatmul.lean ====
/-
  A matrix product into a zero accumulator whose dimension numbers are the standard ones — no batch axis, the left
  operand's columns contracted against the right operand's rows, the left operand's rows and the right operand's
  columns free — read at an index.

  For an n-by-K array times a K-by-M array with those dimension numbers, the entry at (p, q) of the product added to
  a zero array is the sum over k of left(p, k) · right(k, q). The record's six lists are taken as hypotheses; a printed
  record proves each by unfolding.
-/
import proofs.«112252_j14345190769012_2_alg».proof.Proof.LibMatmul
import proofs.«112252_j14345190769012_2_alg».proof.Proof.LibDotStd

noncomputable section

open scoped BigOperators

namespace Cert.Lib.StdMatmul

open Idealize.ShloMosaic Idealize.ShloMosaic.ValueIdx

/-- The kernel's matrix product into the zero splat, standard dimension numbers, at the ideal values, read at (p, q). -/
theorem matmul_std_ix2 {n K M : ℕ} {φ₁ φ₂ : FTy}
    (d : DotDims (⟨2, ![n, K]⟩ : Shape) (⟨2, ![K, M]⟩ : Shape) (⟨2, ![n, M]⟩ : Shape)) (prec : Option ContractPrecision)
    (hlc : d.lhsContracting = [1]) (hrc : d.rhsContracting = [0]) (hln : d.lhsNonContracting = [0]) (hrn : d.rhsNonContracting = [1])
    (hlb : d.lhsBatch = []) (hrb : d.rhsBatch = [])
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  have hr : d.contr.rank = 1 := by rw [d.rank_contr, hlc]; rfl
  have hs : d.contr.size ⟨0, by omega⟩ = K := by
    unfold DotDims.contr
    simp [hlc, Shape.ofList]
  refine Cert.Lib.Matmul.matmul_zero_ix2 d prec hr hs ?_ ?_ ?_ ?_ lhs rhs p q
  · intro j c; exact Cert.Lib.DotStd.lhsIdx_free d 0 hlb hln Nat.zero_lt_two j c
  · intro j c; exact d.lhsIdx_val_of_single hlc j c
  · intro j c; exact d.rhsIdx_val_of_single hrc j c
  · intro j c; exact Cert.Lib.DotStd.rhsIdx_free d 1 hrb hlb 0 hln hrn Nat.one_lt_two j c

end Cert.Lib.StdMatmul

end
-- ==== Proof.LibKeepdims.lean ====
/-
  Two layout operations on a column that keeps its reduced axis, read at an index.

  A one-column array [a, 1] broadcast along its unit axis to [a, b] holds, at (p, c), the column's entry of row p;
  a vector [a] cast to the column [a, 1] holds, at (p, 0), the vector's entry p.
-/
import Idealize.ShloMosaic.Lib.Pipeline.Value
import Idealize.ShloMosaic.Lib.ValueIdx

noncomputable section

namespace Cert.Lib.Keepdims

open Idealize.ShloMosaic Idealize.ShloMosaic.ValueIdx

variable {α : Type}

/-- A column [a, 1] broadcast to [a, b] reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column [a, 1] reads, at (p, u), the vector at p, whatever the unit coordinate u. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Lib.Keepdims

end
-- ==== Proof.SageRow.lean ====
/-
  One node's row of a mean-aggregating graph convolution followed by an L2 normalisation, a linear layer and either a
  rectifier or a softmax, as functions of finitely indexed extended reals; and the two laws that join the two
  spellings of it that a tiled kernel and a whole-array program use.

  The mean of the neighbours' features is the aggregated sum divided by the clamped neighbour count c = max(cnt, 1).
  One spelling multiplies the sum by the reciprocal 1 / c, the other divides by c. On the extended reals division by a
  nonzero c IS multiplication by c⁻¹, and c ≥ 1 is never zero, so the two agree for every sum, finite or not.
  The pre-activation adds the two matrix products and the bias in two different orders; addition of extended reals is
  commutative and associative, so the order does not matter.
-/
import Idealize.ShloMosaic.PureOps.Ideal

noncomputable section

open scoped BigOperators

namespace Cert.Sage

open Idealize.ShloMosaic

variable {K J M : ℕ}

/-- The clamped count max(x, 1) is never zero. -/
theorem max_one_ne_zero (x : EReal) : max x 1 ≠ 0 :=
  (lt_of_lt_of_le zero_lt_one (le_max_right x 1)).ne'

/-- Multiplying by the reciprocal of a nonzero c is dividing by c, for every extended real s. -/
theorem mul_one_div (s c : EReal) (hc : c ≠ 0) : s * Ideal.div 1 c = Ideal.div s c := by
  unfold Ideal.div
  rw [if_neg hc, if_neg hc, one_mul]

/-- The mean with the clamp, both spellings: s · (1 / max(cnt, 1)) = s / max(cnt, 1). -/
theorem mean_eq (s cnt : EReal) : s * Ideal.div 1 (max cnt 1) = Ideal.div s (max cnt 1) :=
  mul_one_div s _ (max_one_ne_zero cnt)

/-- The word 0x3F800000 denotes the real number one. -/
theorem ofBits_one : Ideal.ofBits .f32 0x3F800000#32 = 1 := by
  simp [Ideal.ofBits, Ideal.ieee, -EReal.coe_mul]; norm_num

/-- The mean with the clamp, with the number one spelt by its word, as both programs print it. -/
theorem mean_word (s cnt : EReal) :
    s * Ideal.div (Ideal.ofBits .f32 0x3F800000#32) (max cnt (Ideal.ofBits .f32 0x3F800000#32))
      = Ideal.div s (max cnt (Ideal.ofBits .f32 0x3F800000#32)) := by
  rw [ofBits_one]; exact mean_eq s cnt

/-- The convolution's pre-activation at output feature j: the mean row through the neighbour weights, plus the node's own
    row through the root weights, plus the bias. Weights are indexed (input feature, output feature). -/
def pre (mean x : Fin K → EReal) (Wl Wr : Fin K → Fin J → EReal) (b : Fin J → EReal) (j : Fin J) : EReal :=
  (∑ k, mean k * Wl k j) + (∑ k, x k * Wr k j) + b j

/-- The other order of the same three terms: neighbour product, bias, then root product. -/
theorem pre_comm (mean x : Fin K → EReal) (Wl Wr : Fin K → Fin J → EReal) (b : Fin J → EReal) (j : Fin J) :
    ((∑ k, mean k * Wl k j) + b j) + (∑ k, x k * Wr k j) = pre mean x Wl Wr b j :=
  add_right_comm _ _ _

/-- A row divided by its Euclidean norm, the norm clamped from below by eps. -/
def l2n (a : Fin J → EReal) (eps : EReal) (j : Fin J) : EReal :=
  Ideal.div (a j) (max (Ideal.sqrt (∑ j', a j' * a j')) eps)

/-- A linear layer on a row: weights indexed (input feature, output feature), plus bias. -/
def lin (h : Fin J → EReal) (W : Fin J → Fin M → EReal) (b : Fin M → EReal) (q : Fin M) : EReal :=
  (∑ j, h j * W j q) + b q

/-- The softmax of a row of logits, stabilised by the row's maximum taken from the bottom element ninf. -/
def softmax (l : Fin M → EReal) (ninf : EReal) (q : Fin M) : EReal :=
  Ideal.div (Ideal.exp (l q - max ninf (Finset.univ.fold max ninf l)))
    (∑ q', Ideal.exp (l q' - max ninf (Finset.univ.fold max ninf l)))

end Cert.Sage

end
-- ==== Proof.Pay0.lean ====
/-
  The first layer's block at one element. A block holds 4000 nodes. Its entry at (p, q) depends only on node p's row of
  the aggregated sums, node p's own feature row, node p's reciprocal count, and the weights: it is the rectifier of the
  linear layer applied to the L2-normalised pre-activation row of node p.
-/
import proofs.«112252_j14345190769012_2_alg».proof.Proof.Gen.KernelIdeal.Skeleton
import proofs.«112252_j14345190769012_2_alg».proof.Proof.LibStdMatmul
import proofs.«112252_j14345190769012_2_alg».proof.Proof.LibKeepdims
import proofs.«112252_j14345190769012_2_alg».proof.Proof.SageRow
import Idealize.ShloMosaic.PureOps.Ideal.Laws
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.TcCoe Idealize.ShloMosaic.ValueIdx
open Cert.Sage Cert.Lib.Keepdims Cert.Lib.StdMatmul

/-- The sum of a 256-wide row, read at node p. -/
theorem rowsum256 (v : FVec Ideal S4000x256 .f32) (p : Fin 4000) :
    multiReduction .add [1] S4000 v 0x00000000#32 reduces_S4000x256_S4000 (.inl rfl) rfl (ix1 p) = ∑ j : Fin 256, v (ix2 p j) := by
  refine (Ideal.multiReduction_add_single v 0x00000000#32 reduces_S4000x256_S4000 (.inl rfl) rfl (ix1 p)).trans ?_
  refine Finset.sum_congr rfl fun j _ => congrArg v ?_
  funext a; apply Fin.ext
  match a with
  | ⟨0, _⟩ => rfl
  | ⟨1, _⟩ => rfl

/-- The pre-activation block: neighbour product plus root product plus bias. -/
def acc0 (x0 : Vec Ideal S4000x128 .f32) (x2 : Vec Ideal S4000x1 .f32) (x1 : Vec Ideal S4000x128 .f32)
    (x3 x5 : Vec Ideal S128x256 .bf16) (x4 : Vec Ideal S1x256 .f32) : FVec Ideal S4000x256 .f32 :=
  addf (addf
    (matmul dot_S4000x128_S128x256_S4000x256_1_0_0_1_n_n none
      (truncf .bf16 (mulf (shapeCast S4000x128 x0 shapeCasts_S4000x128_S4000x128 : FVec Ideal S4000x128 .f32)
        (broadcastTo S4000x128 (shapeCast S4000x1 x2 shapeCasts_S4000x1_S4000x1 : FVec Ideal S4000x1 .f32) broadcasts_S4000x1_S4000x128)) bitsLt_bf16_f32)
      (shapeCast S128x256 x3 shapeCasts_S128x256_S128x256 : FVec Ideal S128x256 .bf16) (constant S4000x256 .f32 0x00000000#32))
    (matmul dot_S4000x128_S128x256_S4000x256_1_0_0_1_n_n none (truncf .bf16 (x1 : FVec Ideal S4000x128 .f32) bitsLt_bf16_f32)
      (shapeCast S128x256 x5 shapeCasts_S128x256_S128x256 : FVec Ideal S128x256 .bf16) (constant S4000x256 .f32 0x00000000#32)))
    (broadcastTo S4000x256 (shapeCast S1x256 x4 shapeCasts_S1x256_S1x256 : FVec Ideal S1x256 .f32) broadcasts_S1x256_S4000x256)

/-- At (p, j) the pre-activation block is node p's pre-activation at feature j. -/
theorem acc0_apply (x0 : Vec Ideal S4000x128 .f32) (x2 : Vec Ideal S4000x1 .f32) (x1 : Vec Ideal S4000x128 .f32)
    (x3 x5 : Vec Ideal S128x256 .bf16) (x4 : Vec Ideal S1x256 .f32) (p : Fin 4000) (j : Fin 256) :
    acc0 x0 x2 x1 x3 x5 x4 (ix2 p j)
      = pre (fun k : Fin 128 => x0 (ix2 p k) * x2 (ix2 p (0 : Fin 1))) (fun k : Fin 128 => x1 (ix2 p k))
          (fun (k : Fin 128) (j : Fin 256) => x3 (ix2 k j)) (fun (k : Fin 128) (j : Fin 256) => x5 (ix2 k j))
          (fun j : Fin 256 => x4 (ix2 (0 : Fin 1) j)) j := by
  unfold acc0 pre
  rw [addf_apply, addf_apply]
  unfold Idealize.ShloMosaic.matmul
  rw [matmul_std_ix2 dot_S4000x128_S128x256_S4000x256_1_0_0_1_n_n none rfl rfl rfl rfl rfl rfl,
    matmul_std_ix2 dot_S4000x128_S128x256_S4000x256_1_0_0_1_n_n none rfl rfl rfl rfl rfl rfl,
    broadcastTo_1b_ab_apply]
  simp only [shapeCast_self, truncf_apply, mulf_apply, broadcastTo_a1_ab_apply]

/-- A 256-wide block divided row by row by the row's Euclidean norm clamped from below. -/
def nrm0 (a : FVec Ideal S4000x256 .f32) : FVec Ideal S4000x256 .f32 :=
  divf a (broadcastTo S4000x256
    (maximumf
      (sqrt (shapeCast S4000x1 (multiReduction .add [1] S4000 (mulf a a) 0x00000000#32 reduces_S4000x256_S4000 (.inl rfl) rfl)
        shapeCasts_S4000_S4000x1))
      (broadcast S4000x1 (Scalar.ofBits (F := Ideal) .f32 0x2B8CBCCC#32)))
    broadcasts_S4000x1_S4000x256)

/-- At (p, j) it is node p's row normalised, at feature j. -/
theorem nrm0_apply (a : FVec Ideal S4000x256 .f32) (p : Fin 4000) (j : Fin 256) :
    nrm0 a (ix2 p j) = l2n (fun j : Fin 256 => a (ix2 p j)) (Ideal.ofBits .f32 0x2B8CBCCC#32) j := by
  unfold nrm0 l2n
  rw [divf_apply, broadcastTo_a1_ab_apply, maximumf_apply]
  show Ideal.div (a (ix2 p j)) (max (Ideal.sqrt (shapeCast S4000x1 _ shapeCasts_S4000_S4000x1 (ix2 p (0 : Fin 1)))) _) = _
  rw [shapeCast_a_a1_apply, rowsum256]
  rfl

/-- The whole body of the first layer's kernel as the composition of its three stages. -/
theorem k0_pay_eq (x0 : Vec Ideal S4000x128 .f32) (x2 : Vec Ideal S4000x1 .f32) (x1 : Vec Ideal S4000x128 .f32)
    (x3 x5 : Vec Ideal S128x256 .bf16) (x4 : Vec Ideal S1x256 .f32) (x6 : Vec Ideal S256x128 .bf16) (x7 : Vec Ideal S1x128 .f32) :
    k0_pay1 (k0_pay2 x0 x2 x1 x3 x5 x4 x6 x7) (k0_pay3 (F := Ideal))
      = maximumf
          (addf
            (matmul dot_S4000x256_S256x128_S4000x128_1_0_0_1_n_n none (truncf .bf16 (nrm0 (acc0 x0 x2 x1 x3 x5 x4)) bitsLt_bf16_f32)
              (shapeCast S256x128 x6 shapeCasts_S256x128_S256x128 : FVec Ideal S256x128 .bf16) (constant S4000x128 .f32 0x00000000#32))
            (broadcastTo S4000x128 (shapeCast S1x128 x7 shapeCasts_S1x128_S1x128 : FVec Ideal S1x128 .f32) broadcasts_S1x128_S4000x128))
          (broadcast S4000x128 (Scalar.ofBits (F := Ideal) .f32 0x00000000#32)) := by
  unfold k0_pay1 k0_pay2 k0_pay3 nrm0 acc0
  rfl

/-- The first layer's block at (p, q): the rectified linear layer of node p's normalised pre-activation row. -/
theorem pay0_apply (x0 : Vec Ideal S4000x128 .f32) (x2 : Vec Ideal S4000x1 .f32) (x1 : Vec Ideal S4000x128 .f32)
    (x3 x5 : Vec Ideal S128x256 .bf16) (x4 : Vec Ideal S1x256 .f32) (x6 : Vec Ideal S256x128 .bf16) (x7 : Vec Ideal S1x128 .f32)
    (p : Fin 4000) (q : Fin 128) :
    k0_pay1 (k0_pay2 x0 x2 x1 x3 x5 x4 x6 x7) (k0_pay3 (F := Ideal)) (ix2 p q)
      = max (lin (l2n (pre (fun k : Fin 128 => x0 (ix2 p k) * x2 (ix2 p (0 : Fin 1))) (fun k : Fin 128 => x1 (ix2 p k))
                (fun (k : Fin 128) (j : Fin 256) => x3 (ix2 k j)) (fun (k : Fin 128) (j : Fin 256) => x5 (ix2 k j))
                (fun j : Fin 256 => x4 (ix2 (0 : Fin 1) j)))
              (Ideal.ofBits .f32 0x2B8CBCCC#32))
            (fun (j : Fin 256) (q' : Fin 128) => x6 (ix2 j q')) (fun q' : Fin 128 => x7 (ix2 (0 : Fin 1) q')) q)
          (Ideal.ofBits .f32 0x00000000#32) := by
  rw [k0_pay_eq, maximumf_apply, addf_apply]
  unfold Idealize.ShloMosaic.matmul
  rw [matmul_std_ix2 dot_S4000x256_S256x128_S4000x128_1_0_0_1_n_n none rfl rfl rfl rfl rfl rfl, broadcastTo_1b_ab_apply]
  unfold lin
  simp only [shapeCast_self, truncf_apply, nrm0_apply, acc0_apply]
  rfl

end Cert.KernelIdeal.Pay

end
-- ==== Proof.Blocks0.lean ====
/-
  From blocks to the array, first layer. The output array of 100000 nodes is written in 25 blocks of 4000 nodes, block t
  holding nodes 4000·t … 4000·t + 3999. Every input that moves with the grid (aggregated sums, features, reciprocal
  counts) is read at the same node; the weights are read whole at every point. So the output array, at node n and
  feature q, is the first layer's row function of node n's own rows: one function of the arrays the region finds.
-/
import proofs.«112252_j14345190769012_2_alg».proof.Proof.Gen.KernelIdeal.Frame
import proofs.«112252_j14345190769012_2_alg».proof.Proof.Pay0
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem Cert.Sage Cert.KernelIdeal.Pay
open Idealize.ShloMosaic.Pipeline (Dat Cfg Window)

theorem hz : (![0, 0] : Fin 2 → Nat) = fun _ => 0 := funext fun a => by fin_cases a <;> rfl

/-- Node number of row p of block t. -/
def row0 (t : Fin cfg0.N) (p : Fin 4000) : Fin 100000 :=
  ⟨t.val * 4000 + p.val, by have h : t.val < 25 := Nat.lt_of_lt_of_eq t.isLt N_0
                            have := p.isLt; omega⟩

/-- The first layer at node n, feature q, from whole arrays: sums a0, features a1, reciprocal counts a2, neighbour and
    root weights a3, a5 (input feature, output feature), bias row a4, output weights a6, output bias row a7. -/
def h2row (a0 a1 : S100000x128.Idx → EReal) (a2 : S100000x1.Idx → EReal) (a3 a5 : S128x256.Idx → EReal)
    (a4 : S1x256.Idx → EReal) (a6 : S256x128.Idx → EReal) (a7 : S1x128.Idx → EReal) (n : Fin 100000) (q : Fin 128) : EReal :=
  max (lin (l2n (pre (fun k : Fin 128 => a0 (ix2 n k) * a2 (ix2 n (0 : Fin 1))) (fun k : Fin 128 => a1 (ix2 n k))
            (fun (k : Fin 128) (j : Fin 256) => a3 (ix2 k j)) (fun (k : Fin 128) (j : Fin 256) => a5 (ix2 k j))
            (fun j : Fin 256 => a4 (ix2 (0 : Fin 1) j)))
          (Ideal.ofBits .f32 0x2B8CBCCC#32))
        (fun (j : Fin 256) (q' : Fin 128) => a6 (ix2 j q')) (fun q' : Fin 128 => a7 (ix2 (0 : Fin 1) q')) q)
      (Ideal.ofBits .f32 0x00000000#32)

/-- The same as an array. -/
def H2 (a0 a1 : S100000x128.Idx → EReal) (a2 : S100000x1.Idx → EReal) (a3 a5 : S128x256.Idx → EReal)
    (a4 : S1x256.Idx → EReal) (a6 : S256x128.Idx → EReal) (a7 : S1x128.Idx → EReal) : S100000x128.Idx → EReal :=
  fun i => h2row a0 a1 a2 a3 a5 a4 a6 a7 (i 0) (i 1)

/-- The printed index maps over the grid: the moving windows sit at block (t, 0), the resident ones at (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

variable (V : (c : Dev nD) → (b : Ref sig .tc) → Buf (Elt Ideal) ((c : Thread nD τ).loc b))

/-- Block t of the aggregated sums, at (p, k), is the array at node row0 t p. -/
theorem blk0_0 (c : Dev nD) (t : Fin cfg0.N) (p : Fin 4000) (k : Fin 128) :
    iblk0 V c 0 t (ix2 p k) = V c main_v22 (ix2 (row0 t p) k) := by
  show V c main_v22 (((cfg0.win 0).blk t).view.emb (ix2 p k)) = _
  refine congrArg (V c main_v22) ?_
  obtain ⟨e0, e1, -⟩ := idx_facts0 t
  funext a; apply Fin.ext
  match a with
  | ⟨0, _⟩ => show win0_0.index t (0 : Fin 2) * 4000 + 1 * p.val = t.val * 4000 + p.val; omega
  | ⟨1, _⟩ => show win0_0.index t (1 : Fin 2) * 128 + 1 * k.val = k.val; omega

/-- Block t of the node features, at (p, k). -/
theorem blk0_1 (c : Dev nD) (t : Fin cfg0.N) (p : Fin 4000) (k : Fin 128) :
    iblk0 V c 1 t (ix2 p k) = V c main_arg0 (ix2 (row0 t p) k) := by
  show V c main_arg0 (((cfg0.win 1).blk t).view.emb (ix2 p k)) = _
  refine congrArg (V c main_arg0) ?_
  obtain ⟨-, -, e0, e1, -⟩ := idx_facts0 t
  funext a; apply Fin.ext
  match a with
  | ⟨0, _⟩ => show win0_1.index t (0 : Fin 2) * 4000 + 1 * p.val = t.val * 4000 + p.val; omega
  | ⟨1, _⟩ => show win0_1.index t (1 : Fin 2) * 128 + 1 * k.val = k.val; omega

/-- Block t of the reciprocal counts, at (p, 0). -/
theorem blk0_2 (c : Dev nD) (t : Fin cfg0.N) (p : Fin 4000) (u : Fin 1) :
    iblk0 V c 2 t (ix2 p u) = V c main_v12 (ix2 (row0 t p) u) := by
  show V c main_v12 (((cfg0.win 2).blk t).view.emb (ix2 p u)) = _
  refine congrArg (V c main_v12) ?_
  obtain ⟨-, -, -, -, e0, e1, -⟩ := idx_facts0 t
  funext a; apply Fin.ext
  match a with
  | ⟨0, _⟩ => show win0_2.index t (0 : Fin 2) * 4000 + 1 * p.val = t.val * 4000 + p.val; omega
  | ⟨1, _⟩ => show win0_2.index t (1 : Fin 2) * 1 + 1 * u.val = u.val; omega

/-- The resident windows hold their whole arrays at every point. -/
theorem blk0_3 (c : Dev nD) (t : Fin cfg0.N) (k : Fin 128) (j : Fin 256) :
    iblk0 V c 3 t (ix2 k j) = V c main_v24 (ix2 k j) := by
  show V c main_v24 (((cfg0.win 3).blk t).view.emb (ix2 k j)) = _
  refine congrArg (V c main_v24) ?_
  obtain ⟨-, -, -, -, -, -, e0, e1, -⟩ := idx_facts0 t
  funext a; apply Fin.ext
  match a with
  | ⟨0, _⟩ => show win0_3.index t (0 : Fin 2) * 128 + 1 * k.val = k.val; omega
  | ⟨1, _⟩ => show win0_3.index t (1 : Fin 2) * 256 + 1 * j.val = j.val; omega

theorem blk0_4 (c : Dev nD) (t : Fin cfg0.N) (u : Fin 1) (j : Fin 256) :
    iblk0 V c 4 t (ix2 u j) = V c main_v35 (ix2 u j) := by
  show V c main_v35 (((cfg0.win 4).blk t).view.emb (ix2 u j)) = _
  refine congrArg (V c main_v35) ?_
  obtain ⟨-, -, -, -, -, -, -, -, e0, e1, -⟩ := idx_facts0 t
  funext a; apply Fin.ext
  match a with
  | ⟨0, _⟩ => show win0_4.index t (0 : Fin 2) * 1 + 1 * u.val = u.val; omega
  | ⟨1, _⟩ => show win0_4.index t (1 : Fin 2) * 256 + 1 * j.val = j.val; omega

theorem blk0_5 (c : Dev nD) (t : Fin cfg0.N) (k : Fin 128) (j : Fin 256) :
    iblk0 V c 5 t (ix2 k j) = V c main_v26 (ix2 k j) := by
  show V c main_v26 (((cfg0.win 5).blk t).view.emb (ix2 k j)) = _
  refine congrArg (V c main_v26) ?_
  obtain ⟨-, -, -, -, -, -, -, -, -, -, e0, e1, -⟩ := idx_facts0 t
  funext a; apply Fin.ext
  match a with
  | ⟨0, _⟩ => show win0_5.index t (0 : Fin 2) * 128 + 1 * k.val = k.val; omega
  | ⟨1, _⟩ => show win0_5.index t (1 : Fin 2) * 256 + 1 * j.val = j.val; omega

theorem blk0_6 (c : Dev nD) (t : Fin cfg0.N) (j : Fin 256) (q : Fin 128) :
    iblk0 V c 6 t (ix2 j q) = V c main_v28 (ix2 j q) := by
  show V c main_v28 (((cfg0.win 6).blk t).view.emb (ix2 j q)) = _
  refine congrArg (V c main_v28) ?_
  obtain ⟨-, -, -, -, -, -, -, -, -, -, -, -, e0, e1, -⟩ := idx_facts0 t
  funext a; apply Fin.ext
  match a with
  | ⟨0, _⟩ => show win0_6.index t (0 : Fin 2) * 256 + 1 * j.val = j.val; omega
  | ⟨1, _⟩ => show win0_6.index t (1 : Fin 2) * 128 + 1 * q.val = q.val; omega

theorem blk0_7 (c : Dev nD) (t : Fin cfg0.N) (u : Fin 1) (q : Fin 128) :
    iblk0 V c 7 t (ix2 u q) = V c main_v36 (ix2 u q) := by
  show V c main_v36 (((cfg0.win 7).blk t).view.emb (ix2 u q)) = _
  refine congrArg (V c main_v36) ?_
  obtain ⟨-, -, -, -, -, -, -, -, -, -, -, -, -, -, e0, e1, -⟩ := idx_facts0 t
  funext a; apply Fin.ext
  match a with
  | ⟨0, _⟩ => show win0_7.index t (0 : Fin 2) * 1 + 1 * u.val = u.val; omega
  | ⟨1, _⟩ => show win0_7.index t (1 : Fin 2) * 128 + 1 * q.val = q.val; omega

/-- Where element (p, q) of output block t sits in the output array. -/
theorem emb0_8 (t : Fin cfg0.N) (p : Fin 4000) (q : Fin 128) :
    ((cfg0.win 8).blk t).view.emb (ix2 p q) = ix2 (row0 t p) q := by
  obtain ⟨-, -, -, -, -, -, -, -, -, -, -, -, -, -, -, -, e0, e1⟩ := idx_facts0 t
  funext a; apply Fin.ext
  match a with
  | ⟨0, _⟩ => show win0_8.index t (0 : Fin 2) * 4000 + 1 * p.val = t.val * 4000 + p.val; omega
  | ⟨1, _⟩ => show win0_8.index t (1 : Fin 2) * 128 + 1 * q.val = q.val; omega

/-- WHAT POINT t WRITES BACK is block t of the first layer's function of the arrays the region finds. -/
theorem flushed0_eq (c : Dev nD) (t : Fin cfg0.N) :
    (dat0 V c).flushed 8 t = ((cfg0.win 8).blk t).view.read (Elt Ideal)
      (H2 (V c main_v22) (V c main_arg0) (V c main_v12) (V c main_v24) (V c main_v26) (V c main_v35) (V c main_v28) (V c main_v36)) := by
  show (cfg0.win 8).cut (grid0.coords t) ((dat0 V c).after 8 t) = _
  rw [after0_8]
  unfold out0_8
  rw [View.canon_unit_zero hz]
  simp only [View.ld_unit_zero (S := S4000x128) hz, View.ld_unit_zero (S := S4000x1) hz, View.ld_unit_zero (S := S128x256) hz,
    View.ld_unit_zero (S := S1x256) hz, View.ld_unit_zero (S := S256x128) hz, View.ld_unit_zero (S := S1x128) hz]
  funext j
  obtain ⟨p, q, rfl⟩ : ∃ (p : Fin 4000) (q : Fin 128), j = ix2 p q := ⟨j 0, j 1, eq_ix2 j⟩
  show k0_pay1 (k0_pay2 (iblk0 V c 0 t) (iblk0 V c 2 t) (iblk0 V c 1 t) (iblk0 V c 3 t) (iblk0 V c 5 t) (iblk0 V c 4 t)
        (iblk0 V c 6 t) (iblk0 V c 7 t)) (k0_pay3 (F := Ideal)) (ix2 p q)
      = H2 (V c main_v22) (V c main_arg0) (V c main_v12) (V c main_v24) (V c main_v26) (V c main_v35) (V c main_v28) (V c main_v36)
          (((cfg0.win 8).blk t).view.emb (ix2 p q))
  rw [emb0_8 t p q]
  refine (pay0_apply (iblk0 V c 0 t) (iblk0 V c 2 t) (iblk0 V c 1 t) (iblk0 V c 3 t) (iblk0 V c 5 t) (iblk0 V c 4 t)
    (iblk0 V c 6 t) (iblk0 V c 7 t) p q).trans ?_
  simp only [blk0_0, blk0_1, blk0_2, blk0_3, blk0_4, blk0_5, blk0_6, blk0_7]
  rfl

/-- An index of the output array is in point t's block iff each coordinate is in the block's range. -/
theorem mem_blk0_8 (t : Fin cfg0.N) (i : S100000x128.Idx) :
    i ∈ ((cfg0.win 8).blk t).view.set ↔ ∀ a : Fin 2, win0_8.index t a * S4000x128.size a ≤ (i a).val
      ∧ (i a).val < win0_8.index t a * S4000x128.size a + S4000x128.size a := by
  show i ∈ ((View.whole main_v37).slice (win0_8.rect t)).set ↔ _
  rw [View.set_slice_whole, Rect.mem_set_unit]
  exact Iff.rfl

/-- Every block row of the output is some point's. -/
theorem idx_onto0 : ∀ q0 : Fin 25, ∃ t : Fin cfg0.N, win0_8.index t = ![q0.val, 0] :=
  (by decide +kernel : ∀ q0 : Fin 25, ∃ t : Fin grid0.N, win0_8.index t = ![q0.val, 0])

/-- The blocks tile the output array: node n lies in block n / 4000. -/
theorem cover0_8 (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  obtain ⟨t, ht⟩ := idx_onto0 ⟨(i 0).val / 4000, by omega⟩
  have q0 : win0_8.index t (0 : Fin 2) = (i 0).val / 4000 := congrFun ht 0
  have q1 : win0_8.index t (1 : Fin 2) = 0 := congrFun ht 1
  refine ⟨t, flush0_8 t, ?_⟩
  rw [mem_blk0_8]
  intro a
  match a with
  | ⟨0, _⟩ => show win0_8.index t (0 : Fin 2) * 4000 ≤ (i 0).val ∧ (i 0).val < win0_8.index t (0 : Fin 2) * 4000 + 4000; omega
  | ⟨1, _⟩ => show win0_8.index t (1 : Fin 2) * 128 ≤ (i 1).val ∧ (i 1).val < win0_8.index t (1 : Fin 2) * 128 + 128; omega

/-- THE OUTPUT ARRAY after the first region: the first layer's function of the arrays the region finds. -/
theorem final0 (c : Dev nD) :
    (dat0 V c).arrAt 8 cfg0.N
      = H2 (V c main_v22) (V c main_arg0) (V c main_v12) (V c main_v24) (V c main_v26) (V c main_v35) (V c main_v28) (V c main_v36) :=
  (dat0 V c).arrAt_eq_of_cover 8 _ (fun t _ => flushed0_eq V c t) cover0_8

end Cert.KernelIdeal.Blocks

end
-- ==== Proof.Pay1.lean ====
/-
  The second layer's two blocks at one element. The first output's entry at (p, q) is node p's L2-normalised
  pre-activation row at feature q; the second output's entry at (p, q) is the softmax, over the two classes, of the
  linear layer applied to that same normalised row.
-/
import proofs.«112252_j14345190769012_2_alg».proof.Proof.Gen.KernelIdeal.Skeleton
import proofs.«112252_j14345190769012_2_alg».proof.Proof.LibStdMatmul
import proofs.«112252_j14345190769012_2_alg».proof.Proof.LibKeepdims
import proofs.«112252_j14345190769012_2_alg».proof.Proof.SageRow
import Idealize.ShloMosaic.PureOps.Ideal.Laws
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.TcCoe Idealize.ShloMosaic.ValueIdx
open Cert.Sage Cert.Lib.Keepdims Cert.Lib.StdMatmul

/-- The sum of a 128-wide row, read at node p. -/
theorem rowsum128 (v : FVec Ideal S4000x128 .f32) (p : Fin 4000) :
    multiReduction .add [1] S4000 v 0x00000000#32 reduces_S4000x128_S4000 (.inl rfl) rfl (ix1 p) = ∑ j : Fin 128, v (ix2 p j) := by
  refine (Ideal.multiReduction_add_single v 0x00000000#32 reduces_S4000x128_S4000 (.inl rfl) rfl (ix1 p)).trans ?_
  refine Finset.sum_congr rfl fun j _ => congrArg v ?_
  funext a; apply Fin.ext
  match a with
  | ⟨0, _⟩ => rfl
  | ⟨1, _⟩ => rfl

/-- The sum of a two-class row, read at node p. -/
theorem rowsum2 (v : FVec Ideal S4000x2 .f32) (p : Fin 4000) :
    multiReduction .add [1] S4000 v 0x00000000#32 reduces_S4000x2_S4000 (.inl rfl) rfl (ix1 p) = ∑ j : Fin 2, v (ix2 p j) := by
  refine (Ideal.multiReduction_add_single v 0x00000000#32 reduces_S4000x2_S4000 (.inl rfl) rfl (ix1 p)).trans ?_
  refine Finset.sum_congr rfl fun j _ => congrArg v ?_
  funext a; apply Fin.ext
  match a with
  | ⟨0, _⟩ => rfl
  | ⟨1, _⟩ => rfl

/-- The maximum of a two-class row, read at node p: the fold of max from the bottom element. -/
theorem rowmax2 (v : FVec Ideal S4000x2 .f32) (p : Fin 4000) :
    multiReduction .maximumf [1] S4000 v 0xFF800000#32 reduces_S4000x2_S4000 (.inl rfl) rfl (ix1 p)
      = (Finset.univ : Finset (Fin 2)).fold max (Ideal.ofBits .f32 0xFF800000#32) (fun j : Fin 2 => v (ix2 p j)) := by
  refine (Ideal.multiReduction_maximumf_single v 0xFF800000#32 reduces_S4000x2_S4000 (.inl rfl) rfl (ix1 p)).trans ?_
  refine congrArg (fun f => (Finset.univ : Finset (Fin 2)).fold max (Ideal.ofBits .f32 0xFF800000#32) f) ?_
  funext j
  refine congrArg v ?_
  funext a; apply Fin.ext
  match a with
  | ⟨0, _⟩ => rfl
  | ⟨1, _⟩ => rfl

/-- The second layer's pre-activation block. -/
def acc1 (x0 : Vec Ideal S4000x128 .f32) (x2 : Vec Ideal S4000x1 .f32) (x1 : Vec Ideal S4000x128 .f32)
    (x3 x5 : Vec Ideal S128x128 .bf16) (x4 : Vec Ideal S1x128 .f32) : FVec Ideal S4000x128 .f32 :=
  addf (addf
    (matmul dot_S4000x128_S128x128_S4000x128_1_0_0_1_n_n none
      (truncf .bf16 (mulf (shapeCast S4000x128 x0 shapeCasts_S4000x128_S4000x128 : FVec Ideal S4000x128 .f32)
        (broadcastTo S4000x128 (shapeCast S4000x1 x2 shapeCasts_S4000x1_S4000x1 : FVec Ideal S4000x1 .f32) broadcasts_S4000x1_S4000x128)) bitsLt_bf16_f32)
      (shapeCast S128x128 x3 shapeCasts_S128x128_S128x128 : FVec Ideal S128x128 .bf16) (constant S4000x128 .f32 0x00000000#32))
    (matmul dot_S4000x128_S128x128_S4000x128_1_0_0_1_n_n none
      (truncf .bf16 (shapeCast S4000x128 x1 shapeCasts_S4000x128_S4000x128 : FVec Ideal S4000x128 .f32) bitsLt_bf16_f32)
      (shapeCast S128x128 x5 shapeCasts_S128x128_S128x128 : FVec Ideal S128x128 .bf16) (constant S4000x128 .f32 0x00000000#32)))
    (broadcastTo S4000x128 (shapeCast S1x128 x4 shapeCasts_S1x128_S1x128 : FVec Ideal S1x128 .f32) broadcasts_S1x128_S4000x128)

/-- At (p, j) it is node p's pre-activation at feature j. -/
theorem acc1_apply (x0 : Vec Ideal S4000x128 .f32) (x2 : Vec Ideal S4000x1 .f32) (x1 : Vec Ideal S4000x128 .f32)
    (x3 x5 : Vec Ideal S128x128 .bf16) (x4 : Vec Ideal S1x128 .f32) (p : Fin 4000) (j : Fin 128) :
    acc1 x0 x2 x1 x3 x5 x4 (ix2 p j)
      = pre (fun k : Fin 128 => x0 (ix2 p k) * x2 (ix2 p (0 : Fin 1))) (fun k : Fin 128 => x1 (ix2 p k))
          (fun (k : Fin 128) (j : Fin 128) => x3 (ix2 k j)) (fun (k : Fin 128) (j : Fin 128) => x5 (ix2 k j))
          (fun j : Fin 128 => x4 (ix2 (0 : Fin 1) j)) j := by
  unfold acc1 pre
  rw [addf_apply, addf_apply]
  unfold Idealize.ShloMosaic.matmul
  rw [matmul_std_ix2 dot_S4000x128_S128x128_S4000x128_1_0_0_1_n_n none rfl rfl rfl rfl rfl rfl,
    matmul_std_ix2 dot_S4000x128_S128x128_S4000x128_1_0_0_1_n_n none rfl rfl rfl rfl rfl rfl,
    broadcastTo_1b_ab_apply]
  simp only [shapeCast_self, truncf_apply, mulf_apply, broadcastTo_a1_ab_apply]

/-- A 128-wide block divided row by row by the row's clamped Euclidean norm. -/
def nrm1 (a : FVec Ideal S4000x128 .f32) : FVec Ideal S4000x128 .f32 :=
  divf a (broadcastTo S4000x128
    (maximumf
      (sqrt (shapeCast S4000x1 (multiReduction .add [1] S4000 (mulf a a) 0x00000000#32 reduces_S4000x128_S4000 (.inl rfl) rfl)
        shapeCasts_S4000_S4000x1))
      (broadcast S4000x1 (Scalar.ofBits (F := Ideal) .f32 0x2B8CBCCC#32)))
    broadcasts_S4000x1_S4000x128)

theorem nrm1_apply (a : FVec Ideal S4000x128 .f32) (p : Fin 4000) (j : Fin 128) :
    nrm1 a (ix2 p j) = l2n (fun j : Fin 128 => a (ix2 p j)) (Ideal.ofBits .f32 0x2B8CBCCC#32) j := by
  unfold nrm1 l2n
  rw [divf_apply, broadcastTo_a1_ab_apply, maximumf_apply]
  show Ideal.div (a (ix2 p j)) (max (Ideal.sqrt (shapeCast S4000x1 _ shapeCasts_S4000_S4000x1 (ix2 p (0 : Fin 1)))) _) = _
  rw [shapeCast_a_a1_apply, rowsum128]
  rfl

/-- The first output's body: the normalised pre-activation. -/
theorem k1_pay2_eq (x0 : Vec Ideal S4000x128 .f32) (x2 : Vec Ideal S4000x1 .f32) (x1 : Vec Ideal S4000x128 .f32)
    (x3 x5 : Vec Ideal S128x128 .bf16) (x4 : Vec Ideal S1x128 .f32) :
    k1_pay2 x0 x2 x1 x3 x5 x4 = nrm1 (acc1 x0 x2 x1 x3 x5 x4) := by
  unfold k1_pay2 nrm1 acc1
  rfl

/-- The first output's block at (p, q): node p's normalised pre-activation at feature q. -/
theorem pay1y_apply (x0 : Vec Ideal S4000x128 .f32) (x2 : Vec Ideal S4000x1 .f32) (x1 : Vec Ideal S4000x128 .f32)
    (x3 x5 : Vec Ideal S128x128 .bf16) (x4 : Vec Ideal S1x128 .f32) (p : Fin 4000) (q : Fin 128) :
    k1_pay2 x0 x2 x1 x3 x5 x4 (ix2 p q)
      = l2n (pre (fun k : Fin 128 => x0 (ix2 p k) * x2 (ix2 p (0 : Fin 1))) (fun k : Fin 128 => x1 (ix2 p k))
              (fun (k : Fin 128) (j : Fin 128) => x3 (ix2 k j)) (fun (k : Fin 128) (j : Fin 128) => x5 (ix2 k j))
              (fun j : Fin 128 => x4 (ix2 (0 : Fin 1) j)))
            (Ideal.ofBits .f32 0x2B8CBCCC#32) q := by
  rw [k1_pay2_eq, nrm1_apply]
  simp only [acc1_apply]

/-- The logits block: the normalised rows through the classifier, plus its bias. -/
def logits1 (y : FVec Ideal S4000x128 .f32) (x6 : Vec Ideal S128x2 .bf16) (x7 : Vec Ideal S1x2 .f32) : FVec Ideal S4000x2 .f32 :=
  addf (matmul dot_S4000x128_S128x2_S4000x2_1_0_0_1_n_n none (truncf .bf16 y bitsLt_bf16_f32)
      (shapeCast S128x2 x6 shapeCasts_S128x2_S128x2 : FVec Ideal S128x2 .bf16) (constant S4000x2 .f32 0x00000000#32))
    (broadcastTo S4000x2 (shapeCast S1x2 x7 shapeCasts_S1x2_S1x2 : FVec Ideal S1x2 .f32) broadcasts_S1x2_S4000x2)

theorem logits1_apply (y : FVec Ideal S4000x128 .f32) (x6 : Vec Ideal S128x2 .bf16) (x7 : Vec Ideal S1x2 .f32) (p : Fin 4000) (q : Fin 2) :
    logits1 y x6 x7 (ix2 p q)
      = lin (fun j : Fin 128 => y (ix2 p j)) (fun (j : Fin 128) (q' : Fin 2) => x6 (ix2 j q')) (fun q' : Fin 2 => x7 (ix2 (0 : Fin 1) q')) q := by
  unfold logits1 lin
  rw [addf_apply]
  unfold Idealize.ShloMosaic.matmul
  rw [matmul_std_ix2 dot_S4000x128_S128x2_S4000x2_1_0_0_1_n_n none rfl rfl rfl rfl rfl rfl, broadcastTo_1b_ab_apply]
  simp only [shapeCast_self, truncf_apply]

/-- Each row's maximum, taken from the bottom element, spread back over the row. -/
def mx1 (l : FVec Ideal S4000x2 .f32) : FVec Ideal S4000x2 .f32 :=
  broadcastTo S4000x2
    (shapeCast S4000x1
      (maximumf (broadcast S4000 (Scalar.ofBits (F := Ideal) .f32 0xFF800000#32))
        (multiReduction .maximumf [1] S4000 l 0xFF800000#32 reduces_S4000x2_S4000 (.inl rfl) rfl))
      shapeCasts_S4000_S4000x1)
    broadcasts_S4000x1_S4000x2

theorem mx1_apply (l : FVec Ideal S4000x2 .f32) (p : Fin 4000) (q : Fin 2) :
    mx1 l (ix2 p q) = max (Ideal.ofBits .f32 0xFF800000#32)
      ((Finset.univ : Finset (Fin 2)).fold max (Ideal.ofBits .f32 0xFF800000#32) (fun q' : Fin 2 => l (ix2 p q'))) := by
  unfold mx1
  rw [broadcastTo_a1_ab_apply, shapeCast_a_a1_apply, maximumf_apply, rowmax2]
  rfl

/-- The shifted exponentials of a block of logits. -/
def ex1 (l : FVec Ideal S4000x2 .f32) : FVec Ideal S4000x2 .f32 := exp (subf l (mx1 l))

theorem ex1_apply (l : FVec Ideal S4000x2 .f32) (p : Fin 4000) (q : Fin 2) :
    ex1 l (ix2 p q) = Ideal.exp (l (ix2 p q) - max (Ideal.ofBits .f32 0xFF800000#32)
      ((Finset.univ : Finset (Fin 2)).fold max (Ideal.ofBits .f32 0xFF800000#32) (fun q' : Fin 2 => l (ix2 p q')))) := by
  unfold ex1
  show Ideal.exp (l (ix2 p q) - mx1 l (ix2 p q)) = _
  rw [mx1_apply]

/-- The row-wise softmax of a block of logits. -/
def sm1 (l : FVec Ideal S4000x2 .f32) : FVec Ideal S4000x2 .f32 :=
  divf (ex1 l)
    (broadcastTo S4000x2
      (shapeCast S4000x1 (multiReduction .add [1] S4000 (ex1 l) 0x00000000#32 reduces_S4000x2_S4000 (.inl rfl) rfl) shapeCasts_S4000_S4000x1)
      broadcasts_S4000x1_S4000x2)

theorem sm1_apply (l : FVec Ideal S4000x2 .f32) (p : Fin 4000) (q : Fin 2) :
    sm1 l (ix2 p q) = softmax (fun q' : Fin 2 => l (ix2 p q')) (Ideal.ofBits .f32 0xFF800000#32) q := by
  unfold sm1 softmax
  rw [divf_apply, broadcastTo_a1_ab_apply, shapeCast_a_a1_apply, rowsum2]
  simp only [ex1_apply]

/-- The second output's body: the softmax of the logits of the first output's body. -/
theorem k1_pay1_eq (x0 : Vec Ideal S4000x128 .f32) (x2 : Vec Ideal S4000x1 .f32) (x1 : Vec Ideal S4000x128 .f32)
    (x3 x5 : Vec Ideal S128x128 .bf16) (x4 : Vec Ideal S1x128 .f32) (x6 : Vec Ideal S128x2 .bf16) (x7 : Vec Ideal S1x2 .f32) :
    k1_pay1 (k1_pay3 x0 x2 x1 x3 x5 x4 x6) x7 = sm1 (logits1 (k1_pay2 x0 x2 x1 x3 x5 x4) x6 x7) := by
  unfold k1_pay1 k1_pay3 sm1 ex1 mx1 logits1
  rfl

/-- The second output's block at (p, q): the softmax over the classes of node p's logits. -/
theorem pay1p_apply (x0 : Vec Ideal S4000x128 .f32) (x2 : Vec Ideal S4000x1 .f32) (x1 : Vec Ideal S4000x128 .f32)
    (x3 x5 : Vec Ideal S128x128 .bf16) (x4 : Vec Ideal S1x128 .f32) (x6 : Vec Ideal S128x2 .bf16) (x7 : Vec Ideal S1x2 .f32)
    (p : Fin 4000) (q : Fin 2) :
    k1_pay1 (k1_pay3 x0 x2 x1 x3 x5 x4 x6) x7 (ix2 p q)
      = softmax (lin (l2n (pre (fun k : Fin 128 => x0 (ix2 p k) * x2 (ix2 p (0 : Fin 1))) (fun k : Fin 128 => x1 (ix2 p k))
                    (fun (k : Fin 128) (j : Fin 128) => x3 (ix2 k j)) (fun (k : Fin 128) (j : Fin 128) => x5 (ix2 k j))
                    (fun j : Fin 128 => x4 (ix2 (0 : Fin 1) j)))
                  (Ideal.ofBits .f32 0x2B8CBCCC#32))
                (fun (j : Fin 128) (q' : Fin 2) => x6 (ix2 j q')) (fun q' : Fin 2 => x7 (ix2 (0 : Fin 1) q')))
          (Ideal.ofBits .f32 0xFF800000#32) q := by
  rw [k1_pay1_eq, sm1_apply]
  simp only [logits1_apply, pay1y_apply]

end Cert.KernelIdeal.Pay

end
-- ==== Proof.Blocks1.lean ====
/-
  From blocks to the arrays, second layer. Both output arrays are written in 25 blocks of 4000 nodes, block t holding
  nodes 4000·t … 4000·t + 3999; the inputs that move with the grid are read at the same node and the weights whole. So
  the first output array, at node n and feature q, is node n's normalised pre-activation, and the second, at node n and
  class q, the softmax of node n's logits: each one function of the arrays the region finds.
-/
import proofs.«112252_j14345190769012_2_alg».proof.Proof.Gen.KernelIdeal.Frame
import proofs.«112252_j14345190769012_2_alg».proof.Proof.Pay1
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem Cert.Sage Cert.KernelIdeal.Pay
open Idealize.ShloMosaic.Pipeline (Dat Cfg Window)

theorem hz1 : (![0, 0] : Fin 2 → Nat) = fun _ => 0 := funext fun a => by fin_cases a <;> rfl

/-- Node number of row p of block t. -/
def row1 (t : Fin cfg1.N) (p : Fin 4000) : Fin 100000 :=
  ⟨t.val * 4000 + p.val, by have h : t.val < 25 := Nat.lt_of_lt_of_eq t.isLt N_1
                            have := p.isLt; omega⟩

/-- The second layer's normalised row at node n, feature q, from whole arrays: sums a0, features a1, reciprocal counts
    a2, neighbour and root weights a3, a5 (input feature, output feature), bias row a4. -/
def yrow (a0 a1 : S100000x128.Idx → EReal) (a2 : S100000x1.Idx → EReal) (a3 a5 : S128x128.Idx → EReal)
    (a4 : S1x128.Idx → EReal) (n : Fin 100000) : Fin 128 → EReal :=
  l2n (pre (fun k : Fin 128 => a0 (ix2 n k) * a2 (ix2 n (0 : Fin 1))) (fun k : Fin 128 => a1 (ix2 n k))
        (fun (k : Fin 128) (j : Fin 128) => a3 (ix2 k j)) (fun (k : Fin 128) (j : Fin 128) => a5 (ix2 k j))
        (fun j : Fin 128 => a4 (ix2 (0 : Fin 1) j)))
      (Ideal.ofBits .f32 0x2B8CBCCC#32)

/-- The class probabilities at node n: the softmax of the classifier applied to the normalised row. -/
def prow (a0 a1 : S100000x128.Idx → EReal) (a2 : S100000x1.Idx → EReal) (a3 a5 : S128x128.Idx → EReal)
    (a4 : S1x128.Idx → EReal) (a6 : S128x2.Idx → EReal) (a7 : S1x2.Idx → EReal) (n : Fin 100000) : Fin 2 → EReal :=
  softmax (lin (yrow a0 a1 a2 a3 a5 a4 n) (fun (j : Fin 128) (q' : Fin 2) => a6 (ix2 j q')) (fun q' : Fin 2 => a7 (ix2 (0 : Fin 1) q')))
    (Ideal.ofBits .f32 0xFF800000#32)

/-- The same as arrays. -/
def Y (a0 a1 : S100000x128.Idx → EReal) (a2 : S100000x1.Idx → EReal) (a3 a5 : S128x128.Idx → EReal)
    (a4 : S1x128.Idx → EReal) : S100000x128.Idx → EReal :=
  fun i => yrow a0 a1 a2 a3 a5 a4 (i 0) (i 1)

def Pr (a0 a1 : S100000x128.Idx → EReal) (a2 : S100000x1.Idx → EReal) (a3 a5 : S128x128.Idx → EReal)
    (a4 : S1x128.Idx → EReal) (a6 : S128x2.Idx → EReal) (a7 : S1x2.Idx → EReal) : S100000x2.Idx → EReal :=
  fun i => prow a0 a1 a2 a3 a5 a4 a6 a7 (i 0) (i 1)

/-- The printed index maps over the grid: the moving windows sit at block (t, 0), the resident ones at (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

variable (V : (c : Dev nD) → (b : Ref sig .tc) → Buf (Elt Ideal) ((c : Thread nD τ).loc b))

/-! The input windows' blocks read where the output's rows sit. -/

theorem blk1_0 (c : Dev nD) (t : Fin cfg1.N) (p : Fin 4000) (k : Fin 128) :
    iblk1 V c 0 t (ix2 p k) = V c main_v47 (ix2 (row1 t p) k) := by
  show V c main_v47 (((cfg1.win 0).blk t).view.emb (ix2 p k)) = _
  refine congrArg (V c main_v47) ?_
  obtain ⟨e0, e1, -⟩ := idx_facts1 t
  funext a; apply Fin.ext
  match a with
  | ⟨0, _⟩ => show win1_0.index t (0 : Fin 2) * 4000 + 1 * p.val = t.val * 4000 + p.val; omega
  | ⟨1, _⟩ => show win1_0.index t (1 : Fin 2) * 128 + 1 * k.val = k.val; omega

theorem blk1_1 (c : Dev nD) (t : Fin cfg1.N) (p : Fin 4000) (k : Fin 128) :
    iblk1 V c 1 t (ix2 p k) = V c main_v37 (ix2 (row1 t p) k) := by
  show V c main_v37 (((cfg1.win 1).blk t).view.emb (ix2 p k)) = _
  refine congrArg (V c main_v37) ?_
  obtain ⟨-, -, e0, e1, -⟩ := idx_facts1 t
  funext a; apply Fin.ext
  match a with
  | ⟨0, _⟩ => show win1_1.index t (0 : Fin 2) * 4000 + 1 * p.val = t.val * 4000 + p.val; omega
  | ⟨1, _⟩ => show win1_1.index t (1 : Fin 2) * 128 + 1 * k.val = k.val; omega

theorem blk1_2 (c : Dev nD) (t : Fin cfg1.N) (p : Fin 4000) (u : Fin 1) :
    iblk1 V c 2 t (ix2 p u) = V c main_v12 (ix2 (row1 t p) u) := by
  show V c main_v12 (((cfg1.win 2).blk t).view.emb (ix2 p u)) = _
  refine congrArg (V c main_v12) ?_
  obtain ⟨-, -, -, -, e0, e1, -⟩ := idx_facts1 t
  funext a; apply Fin.ext
  match a with
  | ⟨0, _⟩ => show win1_2.index t (0 : Fin 2) * 4000 + 1 * p.val = t.val * 4000 + p.val; omega
  | ⟨1, _⟩ => show win1_2.index t (1 : Fin 2) * 1 + 1 * u.val = u.val; omega

theorem blk1_3 (c : Dev nD) (t : Fin cfg1.N) (k : Fin 128) (j : Fin 128) :
    iblk1 V c 3 t (ix2 k j) = V c main_v30 (ix2 k j) := by
  show V c main_v30 (((cfg1.win 3).blk t).view.emb (ix2 k j)) = _
  refine congrArg (V c main_v30) ?_
  obtain ⟨-, -, -, -, -, -, e0, e1, -⟩ := idx_facts1 t
  funext a; apply Fin.ext
  match a with
  | ⟨0, _⟩ => show win1_3.index t (0 : Fin 2) * 128 + 1 * k.val = k.val; omega
  | ⟨1, _⟩ => show win1_3.index t (1 : Fin 2) * 128 + 1 * j.val = j.val; omega

theorem blk1_4 (c : Dev nD) (t : Fin cfg1.N) (u : Fin 1) (j : Fin 128) :
    iblk1 V c 4 t (ix2 u j) = V c main_v48 (ix2 u j) := by
  show V c main_v48 (((cfg1.win 4).blk t).view.emb (ix2 u j)) = _
  refine congrArg (V c main_v48) ?_
  obtain ⟨-, -, -, -, -, -, -, -, e0, e1, -⟩ := idx_facts1 t
  funext a; apply Fin.ext
  match a with
  | ⟨0, _⟩ => show win1_4.index t (0 : Fin 2) * 1 + 1 * u.val = u.val; omega
  | ⟨1, _⟩ => show win1_4.index t (1 : Fin 2) * 128 + 1 * j.val = j.val; omega

theorem blk1_5 (c : Dev nD) (t : Fin cfg1.N) (k : Fin 128) (j : Fin 128) :
    iblk1 V c 5 t (ix2 k j) = V c main_v32 (ix2 k j) := by
  show V c main_v32 (((cfg1.win 5).blk t).view.emb (ix2 k j)) = _
  refine congrArg (V c main_v32) ?_
  obtain ⟨-, -, -, -, -, -, -, -, -, -, e0, e1, -⟩ := idx_facts1 t
  funext a; apply Fin.ext
  match a with
  | ⟨0, _⟩ => show win1_5.index t (0 : Fin 2) * 128 + 1 * k.val = k.val; omega
  | ⟨1, _⟩ => show win1_5.index t (1 : Fin 2) * 128 + 1 * j.val = j.val; omega

theorem blk1_6 (c : Dev nD) (t : Fin cfg1.N) (j : Fin 128) (q : Fin 2) :
    iblk1 V c 6 t (ix2 j q) = V c main_v34 (ix2 j q) := by
  show V c main_v34 (((cfg1.win 6).blk t).view.emb (ix2 j q)) = _
  refine congrArg (V c main_v34) ?_
  obtain ⟨-, -, -, -, -, -, -, -, -, -, -, -, e0, e1, -⟩ := idx_facts1 t
  funext a; apply Fin.ext
  match a with
  | ⟨0, _⟩ => show win1_6.index t (0 : Fin 2) * 128 + 1 * j.val = j.val; omega
  | ⟨1, _⟩ => show win1_6.index t (1 : Fin 2) * 2 + 1 * q.val = q.val; omega

theorem blk1_7 (c : Dev nD) (t : Fin cfg1.N) (u : Fin 1) (q : Fin 2) :
    iblk1 V c 7 t (ix2 u q) = V c main_v49 (ix2 u q) := by
  show V c main_v49 (((cfg1.win 7).blk t).view.emb (ix2 u q)) = _
  refine congrArg (V c main_v49) ?_
  obtain ⟨-, -, -, -, -, -, -, -, -, -, -, -, -, -, e0, e1, -⟩ := idx_facts1 t
  funext a; apply Fin.ext
  match a with
  | ⟨0, _⟩ => show win1_7.index t (0 : Fin 2) * 1 + 1 * u.val = u.val; omega
  | ⟨1, _⟩ => show win1_7.index t (1 : Fin 2) * 2 + 1 * q.val = q.val; omega

/-- Where element (p, q) of the first output's block t sits in its array. -/
theorem emb1_8 (t : Fin cfg1.N) (p : Fin 4000) (q : Fin 128) :
    ((cfg1.win 8).blk t).view.emb (ix2 p q) = ix2 (row1 t p) q := by
  obtain ⟨-, -, -, -, -, -, -, -, -, -, -, -, -, -, -, -, e0, e1, -⟩ := idx_facts1 t
  funext a; apply Fin.ext
  match a with
  | ⟨0, _⟩ => show win1_8.index t (0 : Fin 2) * 4000 + 1 * p.val = t.val * 4000 + p.val; omega
  | ⟨1, _⟩ => show win1_8.index t (1 : Fin 2) * 128 + 1 * q.val = q.val; omega

/-- Where element (p, q) of the second output's block t sits in its array. -/
theorem emb1_9 (t : Fin cfg1.N) (p : Fin 4000) (q : Fin 2) :
    ((cfg1.win 9).blk t).view.emb (ix2 p q) = ix2 (row1 t p) q := by
  obtain ⟨-, -, -, -, -, -, -, -, -, -, -, -, -, -, -, -, -, -, e0, e1⟩ := idx_facts1 t
  funext a; apply Fin.ext
  match a with
  | ⟨0, _⟩ => show win1_9.index t (0 : Fin 2) * 4000 + 1 * p.val = t.val * 4000 + p.val; omega
  | ⟨1, _⟩ => show win1_9.index t (1 : Fin 2) * 2 + 1 * q.val = q.val; omega

/-- WHAT POINT t WRITES BACK to the first output is block t of the normalised rows. -/
theorem flushed1_8_eq (c : Dev nD) (t : Fin cfg1.N) :
    (dat1 V c).flushed 8 t = ((cfg1.win 8).blk t).view.read (Elt Ideal) (Y (V c main_v47) (V c main_v37) (V c main_v12) (V c main_v30) (V c main_v32) (V c main_v48)) := by
  show (cfg1.win 8).cut (grid1.coords t) ((dat1 V c).after 8 t) = _
  rw [after1_8]
  unfold out1_8
  rw [View.canon_unit_zero hz1]
  simp only [View.ld_unit_zero (S := S4000x128) hz1, View.ld_unit_zero (S := S4000x1) hz1, View.ld_unit_zero (S := S128x128) hz1,
    View.ld_unit_zero (S := S1x128) hz1]
  funext j
  obtain ⟨p, q, rfl⟩ : ∃ (p : Fin 4000) (q : Fin 128), j = ix2 p q := ⟨j 0, j 1, eq_ix2 j⟩
  show k1_pay2 (iblk1 V c 0 t) (iblk1 V c 2 t) (iblk1 V c 1 t) (iblk1 V c 3 t) (iblk1 V c 5 t) (iblk1 V c 4 t) (ix2 p q)
      = Y (V c main_v47) (V c main_v37) (V c main_v12) (V c main_v30) (V c main_v32) (V c main_v48) (((cfg1.win 8).blk t).view.emb (ix2 p q))
  rw [emb1_8 t p q]
  refine (pay1y_apply (iblk1 V c 0 t) (iblk1 V c 2 t) (iblk1 V c 1 t) (iblk1 V c 3 t) (iblk1 V c 5 t) (iblk1 V c 4 t) p q).trans ?_
  simp only [blk1_0, blk1_1, blk1_2, blk1_3, blk1_4, blk1_5]
  rfl

/-- WHAT POINT t WRITES BACK to the second output is block t of the class probabilities. -/
theorem flushed1_9_eq (c : Dev nD) (t : Fin cfg1.N) :
    (dat1 V c).flushed 9 t = ((cfg1.win 9).blk t).view.read (Elt Ideal) (Pr (V c main_v47) (V c main_v37) (V c main_v12) (V c main_v30) (V c main_v32) (V c main_v48) (V c main_v34) (V c main_v49)) := by
  show (cfg1.win 9).cut (grid1.coords t) ((dat1 V c).after 9 t) = _
  rw [after1_9]
  unfold out1_9
  rw [View.canon_unit_zero hz1]
  simp only [View.ld_unit_zero (S := S4000x128) hz1, View.ld_unit_zero (S := S4000x1) hz1, View.ld_unit_zero (S := S128x128) hz1,
    View.ld_unit_zero (S := S1x128) hz1, View.ld_unit_zero (S := S128x2) hz1, View.ld_unit_zero (S := S1x2) hz1]
  funext j
  obtain ⟨p, q, rfl⟩ : ∃ (p : Fin 4000) (q : Fin 2), j = ix2 p q := ⟨j 0, j 1, eq_ix2 j⟩
  show k1_pay1 (k1_pay3 (iblk1 V c 0 t) (iblk1 V c 2 t) (iblk1 V c 1 t) (iblk1 V c 3 t) (iblk1 V c 5 t) (iblk1 V c 4 t) (iblk1 V c 6 t))
        (iblk1 V c 7 t) (ix2 p q)
      = Pr (V c main_v47) (V c main_v37) (V c main_v12) (V c main_v30) (V c main_v32) (V c main_v48) (V c main_v34) (V c main_v49) (((cfg1.win 9).blk t).view.emb (ix2 p q))
  rw [emb1_9 t p q]
  refine (pay1p_apply (iblk1 V c 0 t) (iblk1 V c 2 t) (iblk1 V c 1 t) (iblk1 V c 3 t) (iblk1 V c 5 t) (iblk1 V c 4 t)
    (iblk1 V c 6 t) (iblk1 V c 7 t) p q).trans ?_
  simp only [blk1_0, blk1_1, blk1_2, blk1_3, blk1_4, blk1_5, blk1_6, blk1_7]
  rfl

theorem mem_blk1_8 (t : Fin cfg1.N) (i : S100000x128.Idx) :
    i ∈ ((cfg1.win 8).blk t).view.set ↔ ∀ a : Fin 2, win1_8.index t a * S4000x128.size a ≤ (i a).val
      ∧ (i a).val < win1_8.index t a * S4000x128.size a + S4000x128.size a := by
  show i ∈ ((View.whole main_v50_0).slice (win1_8.rect t)).set ↔ _
  rw [View.set_slice_whole, Rect.mem_set_unit]
  exact Iff.rfl

theorem mem_blk1_9 (t : Fin cfg1.N) (i : S100000x2.Idx) :
    i ∈ ((cfg1.win 9).blk t).view.set ↔ ∀ a : Fin 2, win1_9.index t a * S4000x2.size a ≤ (i a).val
      ∧ (i a).val < win1_9.index t a * S4000x2.size a + S4000x2.size a := by
  show i ∈ ((View.whole main_v50_1).slice (win1_9.rect t)).set ↔ _
  rw [View.set_slice_whole, Rect.mem_set_unit]
  exact Iff.rfl

/-- Every block row of either output is some point's. -/
theorem idx_onto1 : ∀ q0 : Fin 25, ∃ t : Fin cfg1.N, win1_8.index t = ![q0.val, 0] ∧ win1_9.index t = ![q0.val, 0] :=
  (by decide +kernel : ∀ q0 : Fin 25, ∃ t : Fin grid1.N, win1_8.index t = ![q0.val, 0] ∧ win1_9.index t = ![q0.val, 0])

/-- The blocks tile the first output array: node n lies in block n / 4000. -/
theorem cover1_8 (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  obtain ⟨t, ht, -⟩ := idx_onto1 ⟨(i 0).val / 4000, by omega⟩
  have q0 : win1_8.index t (0 : Fin 2) = (i 0).val / 4000 := congrFun ht 0
  have q1 : win1_8.index t (1 : Fin 2) = 0 := congrFun ht 1
  refine ⟨t, flush1_8 t, ?_⟩
  rw [mem_blk1_8]
  intro a
  match a with
  | ⟨0, _⟩ => show win1_8.index t (0 : Fin 2) * 4000 ≤ (i 0).val ∧ (i 0).val < win1_8.index t (0 : Fin 2) * 4000 + 4000; omega
  | ⟨1, _⟩ => show win1_8.index t (1 : Fin 2) * 128 ≤ (i 1).val ∧ (i 1).val < win1_8.index t (1 : Fin 2) * 128 + 128; omega

/-- The blocks tile the second output array. -/
theorem cover1_9 (i : S100000x2.Idx) :
    ∃ t : Fin cfg1.N, (cfg1.win 9).flush t = true ∧ i ∈ ((cfg1.win 9).blk t).view.set := by
  have hi0 : (i 0).val < 100000 := (i 0).isLt
  have hi1 : (i 1).val < 2 := (i 1).isLt
  obtain ⟨t, -, ht⟩ := idx_onto1 ⟨(i 0).val / 4000, by omega⟩
  have q0 : win1_9.index t (0 : Fin 2) = (i 0).val / 4000 := congrFun ht 0
  have q1 : win1_9.index t (1 : Fin 2) = 0 := congrFun ht 1
  refine ⟨t, flush1_9 t, ?_⟩
  rw [mem_blk1_9]
  intro a
  match a with
  | ⟨0, _⟩ => show win1_9.index t (0 : Fin 2) * 4000 ≤ (i 0).val ∧ (i 0).val < win1_9.index t (0 : Fin 2) * 4000 + 4000; omega
  | ⟨1, _⟩ => show win1_9.index t (1 : Fin 2) * 2 ≤ (i 1).val ∧ (i 1).val < win1_9.index t (1 : Fin 2) * 2 + 2; omega

/-- THE FIRST OUTPUT ARRAY after the second region. -/
theorem final1_8 (c : Dev nD) : (dat1 V c).arrAt 8 cfg1.N = Y (V c main_v47) (V c main_v37) (V c main_v12) (V c main_v30) (V c main_v32) (V c main_v48) :=
  (dat1 V c).arrAt_eq_of_cover 8 _ (fun t _ => flushed1_8_eq V c t) cover1_8

/-- THE SECOND OUTPUT ARRAY after the second region. -/
theorem final1_9 (c : Dev nD) : (dat1 V c).arrAt 9 cfg1.N = Pr (V c main_v47) (V c main_v37) (V c main_v12) (V c main_v30) (V c main_v32) (V c main_v48) (V c main_v34) (V c main_v49) :=
  (dat1 V c).arrAt_eq_of_cover 9 _ (fun t _ => flushed1_9_eq V c t) cover1_9

end Cert.KernelIdeal.Blocks

end
-- ==== Proof.Bridge.lean ====
/-
  The arrays a region finds, read at an index, and the two spellings of a layer's row joined.

  The reciprocal-count column at node n is one over the clamped count; a weight matrix enters transposed, so its entry at
  (input feature, output feature) is the given matrix's entry at (output feature, input feature); a bias enters as a
  one-row matrix. With these the tiled program's row function, which multiplies the aggregated sum by the reciprocal
  count, is the whole-array program's, which divides by the clamped count: the two means agree on every extended real
  because the clamped count is at least one.
-/
import proofs.«112252_j14345190769012_2_alg».proof.Proof.Blocks0
import proofs.«112252_j14345190769012_2_alg».proof.Proof.Blocks1
import proofs.«112252_j14345190769012_2_alg».proof.Proof.LibKeepdims
import proofs.«112252_j14345190769012_2_alg».proof.Proof.SageRow
import Idealize.ShloMosaic.Lib.ValueLayout
import Idealize.ShloMosaic.Lib.Pipeline.Value
import Idealize.ShloMosaic.Lib.ValueIdx

set_option maxRecDepth 16384

noncomputable section

open scoped BigOperators

namespace Cert.KernelIdeal.Bridge

open Cert.KernelIdeal Cert.KernelIdeal.Gen Idealize.ShloMosaic Idealize.ShloMosaic.TcCoe Idealize.ShloMosaic.ValueIdx
open Cert.Sage Cert.Lib.Keepdims Cert.KernelIdeal.Blocks

/-- A scalar constant spread over the nodes reads, at every node, the constant's value. -/
theorem bcast_const (w : BitVec 32) (i : S100000.Idx) :
    broadcastInDim S100000 ![] bcast_S_S100000 (constant (F := Ideal) S_ .f32 w) i = Ideal.ofBits .f32 w :=
  (broadcastInDim_apply _ bcast_S_S100000 _ i ix0 (fun a => a.elim0)).trans (constant_apply _ _)

/-- The reciprocal-count column at node n: one over the count clamped from below by one. -/
theorem cinv_apply (cnt : FVec Ideal S100000 .f32) (n : Fin 100000) (u : Fin 1) :
    (shapeCast S100000x1 (Host.divf (F := Ideal) (broadcastInDim S100000 ![] bcast_S_S100000 (constant (F := Ideal) S_ .f32 0x3F800000#32))
        (maximumf cnt (broadcastInDim S100000 ![] bcast_S_S100000 (constant (F := Ideal) S_ .f32 0x3F800000#32)))) shapeCasts_S100000_S100000x1 : FVec Ideal S100000x1 .f32) (ix2 n u)
      = Ideal.div (Ideal.ofBits .f32 0x3F800000#32) (max (cnt (ix1 n)) (Ideal.ofBits .f32 0x3F800000#32)) := by
  rw [shapeCast_a_a1_apply]
  show Ideal.div (broadcastInDim S100000 ![] bcast_S_S100000 (constant (F := Ideal) S_ .f32 0x3F800000#32) (ix1 n))
      (max (cnt (ix1 n)) (broadcastInDim S100000 ![] bcast_S_S100000 (constant (F := Ideal) S_ .f32 0x3F800000#32) (ix1 n))) = _
  rw [bcast_const]

/-- The first layer's row function at the arrays the first region finds is the whole-array program's spelling of it. -/
theorem h2row_bridge (S X0 : FVec Ideal S100000x128 .f32) (cnt : FVec Ideal S100000 .f32)
    (X2 X4 : FVec Ideal S256x128 .f32) (X3 : FVec Ideal S256 .f32) (X5 : FVec Ideal S128x256 .f32) (X6 : FVec Ideal S128 .f32)
    (n : Fin 100000) (q : Fin 128) :
    h2row S X0 (shapeCast S100000x1 (Host.divf (F := Ideal) (broadcastInDim S100000 ![] bcast_S_S100000 (constant (F := Ideal) S_ .f32 0x3F800000#32))
        (maximumf cnt (broadcastInDim S100000 ![] bcast_S_S100000 (constant (F := Ideal) S_ .f32 0x3F800000#32)))) shapeCasts_S100000_S100000x1 : FVec Ideal S100000x1 .f32)
        (truncf .bf16 (transpose S128x256 [1, 0] X2 transposes_S256x128_S128x256_1_0) bitsLt_bf16_f32 : FVec Ideal S128x256 .bf16)
        (truncf .bf16 (transpose S128x256 [1, 0] X4 transposes_S256x128_S128x256_1_0) bitsLt_bf16_f32 : FVec Ideal S128x256 .bf16)
        (shapeCast S1x256 X3 shapeCasts_S256_S1x256 : FVec Ideal S1x256 .f32)
        (truncf .bf16 (transpose S256x128 [1, 0] X5 transposes_S128x256_S256x128_1_0) bitsLt_bf16_f32 : FVec Ideal S256x128 .bf16)
        (shapeCast S1x128 X6 shapeCasts_S128_S1x128 : FVec Ideal S1x128 .f32) n q
      = max (lin (l2n (pre (fun k : Fin 128 => Ideal.div (S (ix2 n k)) (max (cnt (ix1 n)) (Ideal.ofBits .f32 0x3F800000#32)))
                (fun k : Fin 128 => X0 (ix2 n k)) (fun (k : Fin 128) (j : Fin 256) => X2 (ix2 j k))
                (fun (k : Fin 128) (j : Fin 256) => X4 (ix2 j k)) (fun j : Fin 256 => X3 (ix1 j))) (Ideal.ofBits .f32 0x2B8CBCCC#32))
            (fun (j : Fin 256) (q' : Fin 128) => X5 (ix2 q' j)) (fun q' : Fin 128 => X6 (ix1 q')) q) (Ideal.ofBits .f32 0x00000000#32) := by
  unfold h2row
  simp only [truncf_apply, shapeCast_a_1a_apply]
  rw [cinv_apply]
  have hm : (fun k : Fin 128 => S (ix2 n k) * Ideal.div (Ideal.ofBits .f32 0x3F800000#32) (max (cnt (ix1 n)) (Ideal.ofBits .f32 0x3F800000#32)))
      = fun k : Fin 128 => Ideal.div (S (ix2 n k)) (max (cnt (ix1 n)) (Ideal.ofBits .f32 0x3F800000#32)) := funext fun k => mean_word _ _
  have h2 : (fun (k : Fin 128) (j : Fin 256) => transpose S128x256 [1, 0] X2 transposes_S256x128_S128x256_1_0 (ix2 k j))
      = fun (k : Fin 128) (j : Fin 256) => X2 (ix2 j k) := by
    funext k j; rw [transpose_ix2_apply]
  have h4 : (fun (k : Fin 128) (j : Fin 256) => transpose S128x256 [1, 0] X4 transposes_S256x128_S128x256_1_0 (ix2 k j))
      = fun (k : Fin 128) (j : Fin 256) => X4 (ix2 j k) := by
    funext k j; rw [transpose_ix2_apply]
  have h5 : (fun (j : Fin 256) (q' : Fin 128) => transpose S256x128 [1, 0] X5 transposes_S128x256_S256x128_1_0 (ix2 j q'))
      = fun (j : Fin 256) (q' : Fin 128) => X5 (ix2 q' j) := by
    funext j q'; rw [transpose_ix2_apply]
  rw [hm, h2, h4, h5]

/-- The second layer's normalised row at the arrays the second region finds, in the whole-array program's spelling. -/
theorem yrow_bridge (S H : FVec Ideal S100000x128 .f32) (cnt : FVec Ideal S100000 .f32)
    (X7 X9 : FVec Ideal S128x128 .f32) (X8 : FVec Ideal S128 .f32) (n : Fin 100000) :
    yrow S H (shapeCast S100000x1 (Host.divf (F := Ideal) (broadcastInDim S100000 ![] bcast_S_S100000 (constant (F := Ideal) S_ .f32 0x3F800000#32))
        (maximumf cnt (broadcastInDim S100000 ![] bcast_S_S100000 (constant (F := Ideal) S_ .f32 0x3F800000#32)))) shapeCasts_S100000_S100000x1 : FVec Ideal S100000x1 .f32)
        (truncf .bf16 (transpose S128x128 [1, 0] X7 transposes_S128x128_S128x128_1_0) bitsLt_bf16_f32 : FVec Ideal S128x128 .bf16)
        (truncf .bf16 (transpose S128x128 [1, 0] X9 transposes_S128x128_S128x128_1_0) bitsLt_bf16_f32 : FVec Ideal S128x128 .bf16)
        (shapeCast S1x128 X8 shapeCasts_S128_S1x128 : FVec Ideal S1x128 .f32) n
      = l2n (pre (fun k : Fin 128 => Ideal.div (S (ix2 n k)) (max (cnt (ix1 n)) (Ideal.ofBits .f32 0x3F800000#32)))
              (fun k : Fin 128 => H (ix2 n k)) (fun (k : Fin 128) (j : Fin 128) => X7 (ix2 j k))
              (fun (k : Fin 128) (j : Fin 128) => X9 (ix2 j k)) (fun j : Fin 128 => X8 (ix1 j))) (Ideal.ofBits .f32 0x2B8CBCCC#32) := by
  unfold yrow
  simp only [truncf_apply, shapeCast_a_1a_apply]
  rw [cinv_apply]
  have hm : (fun k : Fin 128 => S (ix2 n k) * Ideal.div (Ideal.ofBits .f32 0x3F800000#32) (max (cnt (ix1 n)) (Ideal.ofBits .f32 0x3F800000#32)))
      = fun k : Fin 128 => Ideal.div (S (ix2 n k)) (max (cnt (ix1 n)) (Ideal.ofBits .f32 0x3F800000#32)) := funext fun k => mean_word _ _
  have h7 : (fun (k : Fin 128) (j : Fin 128) => transpose S128x128 [1, 0] X7 transposes_S128x128_S128x128_1_0 (ix2 k j))
      = fun (k : Fin 128) (j : Fin 128) => X7 (ix2 j k) := by
    funext k j; rw [transpose_ix2_apply]
  have h9 : (fun (k : Fin 128) (j : Fin 128) => transpose S128x128 [1, 0] X9 transposes_S128x128_S128x128_1_0 (ix2 k j))
      = fun (k : Fin 128) (j : Fin 128) => X9 (ix2 j k) := by
    funext k j; rw [transpose_ix2_apply]
  rw [hm, h7, h9]

/-- The class probabilities from the normalised row: the classifier's weights enter transposed, its bias as a row. -/
theorem prow_bridge (a0 a1 : S100000x128.Idx → EReal) (a2 : S100000x1.Idx → EReal) (a3 a5 : S128x128.Idx → EReal)
    (a4 : S1x128.Idx → EReal) (X10 : FVec Ideal S2x128 .f32) (X11 : FVec Ideal S2 .f32) (n : Fin 100000) :
    prow a0 a1 a2 a3 a5 a4 (truncf .bf16 (transpose S128x2 [1, 0] X10 transposes_S2x128_S128x2_1_0) bitsLt_bf16_f32 : FVec Ideal S128x2 .bf16)
        (shapeCast S1x2 X11 shapeCasts_S2_S1x2 : FVec Ideal S1x2 .f32) n
      = softmax (lin (yrow a0 a1 a2 a3 a5 a4 n) (fun (j : Fin 128) (q' : Fin 2) => X10 (ix2 q' j)) (fun q' : Fin 2 => X11 (ix1 q')))
          (Ideal.ofBits .f32 0xFF800000#32) := by
  unfold prow
  simp only [truncf_apply, shapeCast_a_1a_apply]
  have h10 : (fun (j : Fin 128) (q' : Fin 2) => transpose S128x2 [1, 0] X10 transposes_S2x128_S128x2_1_0 (ix2 j q'))
      = fun (j : Fin 128) (q' : Fin 2) => X10 (ix2 q' j) := by
    funext j q'; rw [transpose_ix2_apply]
  rw [h10]

end Cert.KernelIdeal.Bridge

end
-- ==== Proof.RefRows.lean ====
/-
  The whole-array program, one node at a time. Each of its stages, read at node n, depends only on node n's rows of the
  stage before and on the weights; so the first layer's output at (n, q), the second layer's normalised row at (n, q)
  and the class probabilities at (n, q) are the row functions of the aggregated sums, the neighbour counts and the
  node's own rows. The aggregation itself (gathering source rows and adding them at their targets) is never opened.
-/
import proofs.«112252_j14345190769012_2_alg».proof.Proof.Gen.ReferenceIdeal.Read
import proofs.«112252_j14345190769012_2_alg».proof.Proof.SageRow
import Idealize.ShloMosaic.PureOps.Ideal.Laws
import Idealize.ShloMosaic.PureOps.Reduce
import Idealize.ShloMosaic.Lib.ValueIdx

set_option maxRecDepth 16384

noncomputable section

open scoped BigOperators

namespace Cert.ReferenceIdeal.Rows

open Cert.ReferenceIdeal Cert.ReferenceIdeal.Gen Cert.ReferenceIdeal.Read Idealize.ShloMosaic Idealize.ShloMosaic.TcCoe
open Idealize.ShloMosaic.ValueIdx Idealize.ShloMosaic.StableHlo Cert.Sage

/-- An index of a vector is determined by its coordinate. -/
theorem ix1_ext {n : ℕ} (f : (⟨1, ![n]⟩ : Shape).Idx) (a : Fin n) (h : (f 0).val = a.val) : f = ix1 a :=
  funext fun d => Fin.ext (by match d with | ⟨0, _⟩ => exact h)

/-- An index of a matrix is determined by its two coordinates. -/
theorem ix2_ext {n0 n1 : ℕ} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

variable (x0 : (⟨S100000x128, .f32⟩ : BufTy).Contents (Elt Ideal))
  (x1 : (⟨S2x1600000, .i32⟩ : BufTy).Contents (Elt Ideal))
  (x2 : (⟨S256x128, .f32⟩ : BufTy).Contents (Elt Ideal))
  (x3 : (⟨S256, .f32⟩ : BufTy).Contents (Elt Ideal))
  (x4 : (⟨S256x128, .f32⟩ : BufTy).Contents (Elt Ideal))
  (x5 : (⟨S128x256, .f32⟩ : BufTy).Contents (Elt Ideal))
  (x6 : (⟨S128, .f32⟩ : BufTy).Contents (Elt Ideal))
  (x7 : (⟨S128x128, .f32⟩ : BufTy).Contents (Elt Ideal))
  (x8 : (⟨S128, .f32⟩ : BufTy).Contents (Elt Ideal))
  (x9 : (⟨S128x128, .f32⟩ : BufTy).Contents (Elt Ideal))
  (x10 : (⟨S2x128, .f32⟩ : BufTy).Contents (Elt Ideal))
  (x11 : (⟨S2, .f32⟩ : BufTy).Contents (Elt Ideal))

/-! ## The first layer -/

/-- The mean row: the aggregated sum over the clamped neighbour count. -/
theorem mean1 (n : Fin 100000) (k : Fin 128) :
    val_main_v22 (F := Ideal) x0 x1 (ix2 n k) = Ideal.div (val_main_v13 (F := Ideal) x0 x1 (ix2 n k)) (max (val_main_v17 (F := Ideal) x1 (ix1 n)) (Ideal.ofBits .f32 0x3F800000#32)) := by
  rw [val_main_v22_apply, val_main_v21_apply, val_main_v20_apply,
    show idx_main_v20 (idx_main_v21 (ix2 n k)) = ix1 n from ix1_ext _ _ rfl,
    val_main_v19_apply, val_main_v18_apply, val_main_cst_3_apply]
  rfl

/-- The pre-activation at node n, feature j. -/
theorem acc1 (n : Fin 100000) (j : Fin 256) :
    val_main_v30 (F := Ideal) x0 x1 x2 x3 x4 (ix2 n j)
      = pre (fun k : Fin 128 => val_main_v22 (F := Ideal) x0 x1 (ix2 n k)) (fun k : Fin 128 => x0 (ix2 n k))
          (fun (k : Fin 128) (j : Fin 256) => x2 (ix2 j k)) (fun (k : Fin 128) (j : Fin 256) => x4 (ix2 j k))
          (fun j : Fin 256 => x3 (ix1 j)) j := by
  rw [val_main_v30_apply, val_main_v27_apply, val_main_v24_apply, val_main_v29_apply, val_main_v26_apply, val_main_v25_apply]
  refine Eq.trans ?_ (pre_comm _ _ _ _ _ j)
  refine congrArg₂ (· + ·) (congrArg₂ (· + ·) (Finset.sum_congr rfl fun k _ => ?_) ?_) (Finset.sum_congr rfl fun k _ => ?_)
  · rw [val_main_v23_apply]
    exact congrArg₂ (· * ·) (congrArg _ (ix2_ext _ _ _ rfl rfl)) (congrArg x2 (ix2_ext _ _ _ rfl rfl))
  · exact congrArg x3 (ix1_ext _ _ rfl)
  · rw [val_main_v28_apply]
    exact congrArg₂ (· * ·) (congrArg _ (ix2_ext _ _ _ rfl rfl)) (congrArg x4 (ix2_ext _ _ _ rfl rfl))

/-- The normalised row at node n, feature j. -/
theorem nrm1 (n : Fin 100000) (j : Fin 256) :
    val_main_v35 (F := Ideal) x0 x1 x2 x3 x4 (ix2 n j) = l2n (fun j : Fin 256 => val_main_v30 (F := Ideal) x0 x1 x2 x3 x4 (ix2 n j)) (Ideal.ofBits .f32 0x2B8CBCCC#32) j := by
  rw [val_main_v35_apply, val_main_v34_apply, show idx_main_v34 (ix2 n j) = ix2 n (0 : Fin 1) from ix2_ext _ _ _ rfl rfl,
    val_main_v33_apply, val_main_v31_apply, val_main_v32_apply, val_main_cst_4_apply, val_main_call0_v2_apply,
    show idx_main_call0_v2 (ix2 n (0 : Fin 1)) = ix1 n from ix1_ext _ _ rfl, val_main_call0_v1_apply, val_main_call0_cst_apply]
  unfold l2n
  simp only [Ideal.hostDivf_def, Ideal.maximumf_def, Ideal.hostUnary_sqrt_def, Ideal.ofBits_def]
  have hs : (Ideal.ofBits .f32 0x00000000#32 + ∑ k : Fin 256, val_main_call0_v0 (F := Ideal) x0 x1 x2 x3 x4 (idx_main_call0_v1 (ix1 n) k))
      = ∑ j' : Fin 256, val_main_v30 (F := Ideal) x0 x1 x2 x3 x4 (ix2 n j') * val_main_v30 (F := Ideal) x0 x1 x2 x3 x4 (ix2 n j') := by
    rw [Ideal.ofBits_zero_f32, zero_add]
    refine Finset.sum_congr rfl fun k _ => ?_
    rw [val_main_call0_v0_apply, show idx_main_call0_v1 (ix1 n) k = ix2 n k from ix2_ext _ _ _ rfl rfl]
    rfl
  rw [hs]

/-- The linear layer on the normalised row. -/
theorem lin1 (n : Fin 100000) (q : Fin 128) :
    val_main_v40 (F := Ideal) x0 x1 x2 x3 x4 x5 x6 (ix2 n q)
      = lin (fun j : Fin 256 => val_main_v35 (F := Ideal) x0 x1 x2 x3 x4 (ix2 n j)) (fun (j : Fin 256) (q' : Fin 128) => x5 (ix2 q' j)) (fun q' : Fin 128 => x6 (ix1 q')) q := by
  rw [val_main_v40_apply, val_main_v37_apply, val_main_v39_apply, val_main_v38_apply]
  unfold lin
  refine congrArg₂ (· + ·) (Finset.sum_congr rfl fun k _ => ?_) (congrArg x6 (ix1_ext _ _ rfl))
  rw [val_main_v36_apply]
  exact congrArg₂ (· * ·) (congrArg _ (ix2_ext _ _ _ rfl rfl)) (congrArg x5 (ix2_ext _ _ _ rfl rfl))

/-- The first layer's output at node n, feature q. -/
theorem out1 (n : Fin 100000) (q : Fin 128) :
    val_main_v42 (F := Ideal) x0 x1 x2 x3 x4 x5 x6 (ix2 n q)
      = max (lin (l2n (pre (fun k : Fin 128 => Ideal.div (val_main_v13 (F := Ideal) x0 x1 (ix2 n k)) (max (val_main_v17 (F := Ideal) x1 (ix1 n)) (Ideal.ofBits .f32 0x3F800000#32)))
                (fun k : Fin 128 => x0 (ix2 n k)) (fun (k : Fin 128) (j : Fin 256) => x2 (ix2 j k))
                (fun (k : Fin 128) (j : Fin 256) => x4 (ix2 j k)) (fun j : Fin 256 => x3 (ix1 j))) (Ideal.ofBits .f32 0x2B8CBCCC#32))
            (fun (j : Fin 256) (q' : Fin 128) => x5 (ix2 q' j)) (fun q' : Fin 128 => x6 (ix1 q')) q) (Ideal.ofBits .f32 0x00000000#32) := by
  rw [val_main_v42_apply, val_main_v41_apply, val_main_cst_5_apply, lin1]
  simp only [nrm1, acc1, mean1]
  rfl

/-! ## The second layer -/

/-- The mean row: the aggregated sum over the clamped neighbour count. -/
theorem mean2 (n : Fin 100000) (k : Fin 128) :
    val_main_v61 (F := Ideal) x0 x1 x2 x3 x4 x5 x6 (ix2 n k) = Ideal.div (val_main_v52 (F := Ideal) x0 x1 x2 x3 x4 x5 x6 (ix2 n k)) (max (val_main_v56 (F := Ideal) x1 (ix1 n)) (Ideal.ofBits .f32 0x3F800000#32)) := by
  rw [val_main_v61_apply, val_main_v60_apply, val_main_v59_apply,
    show idx_main_v59 (idx_main_v60 (ix2 n k)) = ix1 n from ix1_ext _ _ rfl,
    val_main_v58_apply, val_main_v57_apply, val_main_cst_11_apply]
  rfl

/-- The pre-activation at node n, feature j. -/
theorem acc2 (n : Fin 100000) (j : Fin 128) :
    val_main_v69 (F := Ideal) x0 x1 x2 x3 x4 x5 x6 x7 x8 x9 (ix2 n j)
      = pre (fun k : Fin 128 => val_main_v61 (F := Ideal) x0 x1 x2 x3 x4 x5 x6 (ix2 n k)) (fun k : Fin 128 => (val_main_v42 (F := Ideal) x0 x1 x2 x3 x4 x5 x6) (ix2 n k))
          (fun (k : Fin 128) (j : Fin 128) => x7 (ix2 j k)) (fun (k : Fin 128) (j : Fin 128) => x9 (ix2 j k))
          (fun j : Fin 128 => x8 (ix1 j)) j := by
  rw [val_main_v69_apply, val_main_v66_apply, val_main_v63_apply, val_main_v68_apply, val_main_v65_apply, val_main_v64_apply]
  refine Eq.trans ?_ (pre_comm _ _ _ _ _ j)
  refine congrArg₂ (· + ·) (congrArg₂ (· + ·) (Finset.sum_congr rfl fun k _ => ?_) ?_) (Finset.sum_congr rfl fun k _ => ?_)
  · rw [val_main_v62_apply]
    exact congrArg₂ (· * ·) (congrArg _ (ix2_ext _ _ _ rfl rfl)) (congrArg x7 (ix2_ext _ _ _ rfl rfl))
  · exact congrArg x8 (ix1_ext _ _ rfl)
  · rw [val_main_v67_apply]
    exact congrArg₂ (· * ·) (congrArg _ (ix2_ext _ _ _ rfl rfl)) (congrArg x9 (ix2_ext _ _ _ rfl rfl))

/-- The normalised row at node n, feature j. -/
theorem nrm2 (n : Fin 100000) (j : Fin 128) :
    val_main_v74 (F := Ideal) x0 x1 x2 x3 x4 x5 x6 x7 x8 x9 (ix2 n j) = l2n (fun j : Fin 128 => val_main_v69 (F := Ideal) x0 x1 x2 x3 x4 x5 x6 x7 x8 x9 (ix2 n j)) (Ideal.ofBits .f32 0x2B8CBCCC#32) j := by
  rw [val_main_v74_apply, val_main_v73_apply, show idx_main_v73 (ix2 n j) = ix2 n (0 : Fin 1) from ix2_ext _ _ _ rfl rfl,
    val_main_v72_apply, val_main_v70_apply, val_main_v71_apply, val_main_cst_12_apply, val_main_call1_v2_apply,
    show idx_main_call1_v2 (ix2 n (0 : Fin 1)) = ix1 n from ix1_ext _ _ rfl, val_main_call1_v1_apply, val_main_call1_cst_apply]
  unfold l2n
  simp only [Ideal.hostDivf_def, Ideal.maximumf_def, Ideal.hostUnary_sqrt_def, Ideal.ofBits_def]
  have hs : (Ideal.ofBits .f32 0x00000000#32 + ∑ k : Fin 128, val_main_call1_v0 (F := Ideal) x0 x1 x2 x3 x4 x5 x6 x7 x8 x9 (idx_main_call1_v1 (ix1 n) k))
      = ∑ j' : Fin 128, val_main_v69 (F := Ideal) x0 x1 x2 x3 x4 x5 x6 x7 x8 x9 (ix2 n j') * val_main_v69 (F := Ideal) x0 x1 x2 x3 x4 x5 x6 x7 x8 x9 (ix2 n j') := by
    rw [Ideal.ofBits_zero_f32, zero_add]
    refine Finset.sum_congr rfl fun k _ => ?_
    rw [val_main_call1_v0_apply, show idx_main_call1_v1 (ix1 n) k = ix2 n k from ix2_ext _ _ _ rfl rfl]
    rfl
  rw [hs]

/-- The second layer's normalised row at node n, feature q. -/
theorem out2y (n : Fin 100000) (q : Fin 128) :
    val_main_v74 (F := Ideal) x0 x1 x2 x3 x4 x5 x6 x7 x8 x9 (ix2 n q)
      = l2n (pre (fun k : Fin 128 => Ideal.div (val_main_v52 (F := Ideal) x0 x1 x2 x3 x4 x5 x6 (ix2 n k)) (max (val_main_v56 (F := Ideal) x1 (ix1 n)) (Ideal.ofBits .f32 0x3F800000#32)))
              (fun k : Fin 128 => val_main_v42 (F := Ideal) x0 x1 x2 x3 x4 x5 x6 (ix2 n k)) (fun (k : Fin 128) (j : Fin 128) => x7 (ix2 j k))
              (fun (k : Fin 128) (j : Fin 128) => x9 (ix2 j k)) (fun j : Fin 128 => x8 (ix1 j))) (Ideal.ofBits .f32 0x2B8CBCCC#32) q := by
  rw [nrm2]
  simp only [acc2, mean2]

/-- The classifier's logits at node n. -/
theorem logit2 (n : Fin 100000) (q : Fin 2) :
    val_main_v79 (F := Ideal) x0 x1 x2 x3 x4 x5 x6 x7 x8 x9 x10 x11 (ix2 n q)
      = lin (fun j : Fin 128 => val_main_v74 (F := Ideal) x0 x1 x2 x3 x4 x5 x6 x7 x8 x9 (ix2 n j)) (fun (j : Fin 128) (q' : Fin 2) => x10 (ix2 q' j)) (fun q' : Fin 2 => x11 (ix1 q')) q := by
  rw [val_main_v79_apply, val_main_v76_apply, val_main_v78_apply, val_main_v77_apply]
  unfold lin
  refine congrArg₂ (· + ·) (Finset.sum_congr rfl fun k _ => ?_) (congrArg x11 (ix1_ext _ _ rfl))
  rw [val_main_v75_apply]
  exact congrArg₂ (· * ·) (congrArg _ (ix2_ext _ _ _ rfl rfl)) (congrArg x10 (ix2_ext _ _ _ rfl rfl))

/-- The maximum of node n's logits: the fold of max from the bottom element. -/
theorem rowmax_gen (y : FVec Ideal S100000x2 .f32) (n : Fin 100000) :
    Host.reduce FloatOps.maximumf y (constant (F := Ideal) S_ .f32 0xFF800000#32) reducesTo_S100000x2_S100000_d1 h_S_ (ix1 n)
      = (Finset.univ : Finset (Fin 2)).fold max (Ideal.ofBits .f32 0xFF800000#32) (fun q' : Fin 2 => y (ix2 n q')) := by
  have h : S100000x2.Reduces [1] S100000 := by decide
  rw [Host.reduce_eq_fold_single FloatOps.maximumf y _ reducesTo_S100000x2_S100000_d1 h h_S_, constant_apply]
  show (Finset.univ : Finset (Fin 2)).fold max (Ideal.ofBits .f32 0xFF800000#32) (y ∘ h.lift (ix1 n)) = _
  refine congrArg (fun f => (Finset.univ : Finset (Fin 2)).fold max (Ideal.ofBits .f32 0xFF800000#32) f) ?_
  funext q'
  exact congrArg y (ix2_ext _ _ _ rfl rfl)

theorem rowmax2 (n : Fin 100000) :
    val_main_v80 (F := Ideal) x0 x1 x2 x3 x4 x5 x6 x7 x8 x9 x10 x11 (ix1 n) = (Finset.univ : Finset (Fin 2)).fold max (Ideal.ofBits .f32 0xFF800000#32) (fun q' : Fin 2 => val_main_v79 (F := Ideal) x0 x1 x2 x3 x4 x5 x6 x7 x8 x9 x10 x11 (ix2 n q')) := by
  unfold val_main_v80 val_main_cst_13
  exact rowmax_gen _ n

/-- The class probabilities at node n: the softmax of its logits. -/
theorem sm2 (n : Fin 100000) (q : Fin 2) :
    val_main_v90 (F := Ideal) x0 x1 x2 x3 x4 x5 x6 x7 x8 x9 x10 x11 (ix2 n q) = softmax (fun q' : Fin 2 => val_main_v79 (F := Ideal) x0 x1 x2 x3 x4 x5 x6 x7 x8 x9 x10 x11 (ix2 n q')) (Ideal.ofBits .f32 0xFF800000#32) q := by
  have hmx : ∀ q' : Fin 2, val_main_v84 (F := Ideal) x0 x1 x2 x3 x4 x5 x6 x7 x8 x9 x10 x11 (ix2 n q')
      = max (Ideal.ofBits .f32 0xFF800000#32) ((Finset.univ : Finset (Fin 2)).fold max (Ideal.ofBits .f32 0xFF800000#32) (fun q' : Fin 2 => val_main_v79 (F := Ideal) x0 x1 x2 x3 x4 x5 x6 x7 x8 x9 x10 x11 (ix2 n q'))) := by
    intro q'
    rw [val_main_v84_apply, show idx_main_v84 (ix2 n q') = ix2 n (0 : Fin 1) from ix2_ext _ _ _ rfl rfl, val_main_v83_apply,
      show idx_main_v83 (ix2 n (0 : Fin 1)) = ix1 n from ix1_ext _ _ rfl, val_main_v82_apply, val_main_v81_apply, val_main_cst_14_apply, rowmax2]
    simp only [Ideal.maximumf_def, Ideal.ofBits_def]
  have hex : ∀ q' : Fin 2, val_main_v86 (F := Ideal) x0 x1 x2 x3 x4 x5 x6 x7 x8 x9 x10 x11 (ix2 n q')
      = Ideal.exp (val_main_v79 (F := Ideal) x0 x1 x2 x3 x4 x5 x6 x7 x8 x9 x10 x11 (ix2 n q') - max (Ideal.ofBits .f32 0xFF800000#32) ((Finset.univ : Finset (Fin 2)).fold max (Ideal.ofBits .f32 0xFF800000#32) (fun q' : Fin 2 => val_main_v79 (F := Ideal) x0 x1 x2 x3 x4 x5 x6 x7 x8 x9 x10 x11 (ix2 n q')))) := by
    intro q'
    rw [val_main_v86_apply, val_main_v85_apply, hmx]
    simp only [Ideal.hostUnary_exp_def, Ideal.subf_def]
  rw [val_main_v90_apply, val_main_v89_apply, show idx_main_v89 (ix2 n q) = ix2 n (0 : Fin 1) from ix2_ext _ _ _ rfl rfl, val_main_v88_apply,
    show idx_main_v88 (ix2 n (0 : Fin 1)) = ix1 n from ix1_ext _ _ rfl, val_main_v87_apply, val_main_cst_15_apply, hex]
  unfold softmax
  simp only [Ideal.hostDivf_def, Ideal.ofBits_def]
  refine congrArg (Ideal.div _) ?_
  rw [Ideal.ofBits_zero_f32, zero_add]
  refine Finset.sum_congr rfl fun k _ => ?_
  rw [show idx_main_v87 (ix1 n) k = ix2 n k from ix2_ext _ _ _ rfl rfl, hex]

/-- The class probabilities at node n, class q, from the normalised row. -/
theorem out2p (n : Fin 100000) (q : Fin 2) :
    val_main_v90 (F := Ideal) x0 x1 x2 x3 x4 x5 x6 x7 x8 x9 x10 x11 (ix2 n q)
      = softmax (lin (fun j : Fin 128 => val_main_v74 (F := Ideal) x0 x1 x2 x3 x4 x5 x6 x7 x8 x9 (ix2 n j)) (fun (j : Fin 128) (q' : Fin 2) => x10 (ix2 q' j))
          (fun q' : Fin 2 => x11 (ix1 q'))) (Ideal.ofBits .f32 0xFF800000#32) q := by
  rw [sm2]
  simp only [logit2]

end Cert.ReferenceIdeal.Rows

end
-- ==== Proof.KernelValue.lean ====
/-
  The tiled program's arrays are the whole-array program's stages. The first region leaves, in its output array, the first
  layer's output of the arguments; the arrays the second region then finds are the same aggregation and the same reciprocal
  counts applied to it, so its two output arrays are the second layer's normalised rows and the class probabilities of the
  arguments: index by index the two programs compute one function.
-/
import proofs.«112252_j14345190769012_2_alg».proof.Proof.KernelRun
import proofs.«112252_j14345190769012_2_alg».proof.Proof.KernelEntry
import proofs.«112252_j14345190769012_2_alg».proof.Proof.AggSame
import proofs.«112252_j14345190769012_2_alg».proof.Proof.Blocks0
import proofs.«112252_j14345190769012_2_alg».proof.Proof.Blocks1
import proofs.«112252_j14345190769012_2_alg».proof.Proof.Bridge
import proofs.«112252_j14345190769012_2_alg».proof.Proof.RefRows
import proofs.«112252_j14345190769012_2_alg».proof.Proof.Gen.ReferenceIdeal.Read

set_option maxRecDepth 16384

noncomputable section

open scoped BigOperators

namespace Cert.KernelIdeal.Value

open Cert.KernelIdeal Cert.KernelIdeal.Gen Cert.KernelIdeal.Run Cert.KernelIdeal.Blocks Cert.KernelIdeal.Bridge
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- After the first region its output array is the first layer's output of the arguments. -/
theorem kernel_h :
    (dat0 (V1 m ρ) c).arrAt 8 cfg0.N = Cert.ReferenceIdeal.Read.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [final0 (V1 m ρ) c, agg0 m ρ c, entry0_1 (F := Ideal) m ρ c, cinv0 m ρ c, entry0_3 (F := Ideal) m ρ c, entry0_5 (F := Ideal) m ρ c,
    entry0_4 (F := Ideal) m ρ c, entry0_6 (F := Ideal) m ρ c, entry0_7 (F := Ideal) m ρ c]
  funext i
  obtain ⟨n, q, rfl⟩ : ∃ (n : Fin 100000) (q : Fin 128), i = ix2 n q := ⟨i 0, i 1, eq_ix2 i⟩
  show h2row _ _ _ _ _ _ _ _ n q = _
  rw [h2row_bridge, same13, same17, Cert.ReferenceIdeal.Rows.out1]

/-- After the second region its first output array is the second layer's normalised rows of the arguments. -/
theorem kernel_y :
    (dat1 (V3 m ρ) c).arrAt 8 cfg1.N = Cert.ReferenceIdeal.Read.val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [final1_8 (V3 m ρ) c, agg1 m ρ c, entry1_1 (F := Ideal) m ρ c, cinv1 m ρ c, entry1_3_term (F := Ideal) m ρ c,
    entry1_5_term (F := Ideal) m ρ c, entry1_4 (F := Ideal) m ρ c, kernel_h m ρ c]
  funext i
  obtain ⟨n, q, rfl⟩ : ∃ (n : Fin 100000) (q : Fin 128), i = ix2 n q := ⟨i 0, i 1, eq_ix2 i⟩
  show yrow _ _ _ _ _ _ n q = _
  rw [yrow_bridge, same52, same56, Cert.ReferenceIdeal.Rows.out2y]

/-- After the second region its second output array is the class probabilities of the arguments. -/
theorem kernel_p :
    (dat1 (V3 m ρ) c).arrAt 9 cfg1.N = Cert.ReferenceIdeal.Read.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [final1_9 (V3 m ρ) c, entry1_6_term (F := Ideal) m ρ c, entry1_7 (F := Ideal) m ρ c]
  funext i
  obtain ⟨n, q, rfl⟩ : ∃ (n : Fin 100000) (q : Fin 2), i = ix2 n q := ⟨i 0, i 1, eq_ix2 i⟩
  show prow _ _ _ _ _ _ _ _ n q = _
  rw [prow_bridge]
  have hy : yrow (V3 m ρ c main_v47) (V3 m ρ c main_v37) (V3 m ρ c main_v12) (V3 m ρ c main_v30) (V3 m ρ c main_v32) (V3 m ρ c main_v48) n
      = fun j : Fin 128 => Cert.ReferenceIdeal.Read.val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix2 n j) := by
    funext j
    have h := congrFun (kernel_y m ρ c) (ix2 n j)
    rw [final1_8 (V3 m ρ) c] at h
    exact h
  rw [hy, Cert.ReferenceIdeal.Rows.out2p]

end Cert.KernelIdeal.Value

end
-- ==== Proof.lean ====
/-
  A two-layer mean-aggregating graph network on 100000 nodes and 1600000 edges: each layer gathers the source rows of
  the edges, adds them at their targets, divides by the clamped neighbour count, applies the neighbour and root weights
  and a bias, and L2-normalises; the first layer is followed by a linear layer and a rectifier, the second by a two-class
  linear layer and a softmax. The tiled program does the dense part of each layer in blocks of 4000 nodes and
  multiplies the aggregated sum by a precomputed reciprocal count; the whole-array program divides by the count.

  On the extended reals the two programs compute one function of the arguments. A block's entry depends only on its
  node's own rows, so the blocks are restrictions of one whole-array function; dividing by c = max(count, 1) is
  multiplying by 1 · c⁻¹ because c ≥ 1 is never zero, whatever the sum; the three terms of the pre-activation may be
  added in either order; matrix products into a zero accumulator and the host's contractions are the same sums; a change
  of float format is the identity. The aggregation is the same operation in both programs and is never opened, nor is
  the precondition: no step needs finiteness.
-/
import proofs.«112252_j14345190769012_2_alg».proof.Defs
import proofs.«112252_j14345190769012_2_alg».proof.Proof.Gen.Kernel
import proofs.«112252_j14345190769012_2_alg».proof.Proof.Gen.Kernel.Skeleton
import proofs.«112252_j14345190769012_2_alg».proof.Proof.Gen.Kernel.Launch
import proofs.«112252_j14345190769012_2_alg».proof.Proof.Gen.Kernel.Points
import proofs.«112252_j14345190769012_2_alg».proof.Proof.Gen.Kernel.Frame
import proofs.«112252_j14345190769012_2_alg».proof.Proof.Gen.KernelIdeal
import proofs.«112252_j14345190769012_2_alg».proof.Proof.Gen.KernelIdeal.Skeleton
import proofs.«112252_j14345190769012_2_alg».proof.Proof.Gen.KernelIdeal.Launch
import proofs.«112252_j14345190769012_2_alg».proof.Proof.Gen.KernelIdeal.Points
import proofs.«112252_j14345190769012_2_alg».proof.Proof.Gen.KernelIdeal.Frame
import proofs.«112252_j14345190769012_2_alg».proof.Proof.Gen.ReferenceIdeal
import proofs.«112252_j14345190769012_2_alg».proof.Proof.Gen.Pre_finite_inputs
import proofs.«112252_j14345190769012_2_alg».proof.Proof.Gen.ReferenceIdeal.Read
import proofs.«112252_j14345190769012_2_alg».proof.Proof.KernelRun
import proofs.«112252_j14345190769012_2_alg».proof.Proof.KernelValue
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The whole-array program runs and leaves its arguments as launched: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten for the reading on the extended reals. -/
theorem preserves : Cert.preserves_Kernel_KernelIdeal := trivial

/-- From memories agreeing on the arguments both programs end with the class probabilities and the normalised rows of the
    arguments: the tiled program's two output arrays are the whole-array program's two result stages. -/
theorem algebraic : Cert.algebraic_KernelIdeal_ReferenceIdeal := by
  intro m ρ m' ρ' _ hagree
  refine ⟨fun c => Cert.ReferenceIdeal.Read.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Value.kernel_p m ρ c), (h c).2.1.trans (Cert.KernelIdeal.Value.kernel_y m ρ c), (h c).2.2⟩)
      (Cert.KernelIdeal.Run.run_values (F := Ideal) m ρ)
  · refine (θ_run Cert.ReferenceIdeal.defs _ _).mono (fun r h c => ⟨?_, ?_, (h c).2.2⟩)
      (Cert.ReferenceIdeal.Value.run (F := Ideal) m' ρ')
    · obtain ⟨a0, a1, a2, a3, a4, a5, a6, a7, a8, a9, a10, a11⟩ := hagree c
      rw [(h c).1, Cert.ReferenceIdeal.Read.val_main_v90_eq, a0, a1, a2, a3, a4, a5, a6, a7, a8, a9, a10, a11]
    · obtain ⟨a0, a1, a2, a3, a4, a5, a6, a7, a8, a9, -, -⟩ := hagree c
      rw [(h c).2.1, Cert.ReferenceIdeal.Read.val_main_v74_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
